-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x64 : Shape := ⟨3, ![32, 16384, 64]⟩
abbrev S_ : Shape := ⟨0, ![]⟩

class Facts : Prop where
  bcast_S_S32x16384x64 : S_.BroadcastsInDim S32x16384x64 (![] : Fin 0 → Fin S32x16384x64.rank)
  reducesTo_S32x16384x64_S_d0_1_2 : S32x16384x64.ReducesTo [0, 1, 2] S_
  h_S_ : 0 < S_.numel

variable [Facts]

def fn {F : FTy → Type} [FloatOps F] (main_arg0 : FVec F S32x16384x64 .f32) : IVec S_ 1 :=
  let main_v0 : FVec F S32x16384x64 .f32 := Host.absf main_arg0
  let main_cst : FVec F S_ .f32 := constant S_ .f32 0x7F800000#32
  let main_v1 : FVec F S32x16384x64 .f32 := broadcastInDim S32x16384x64 ![] bcast_S_S32x16384x64 main_cst
  let main_v2 : IVec S32x16384x64 1 := cmpf .olt main_v0 main_v1
  let main_c : IVec S_ 1 := constantI S_ 1 1#1
  let main_v3 : IVec S_ 1 := (fun x v => Host.reduce IntOp.andi x v reducesTo_S32x16384x64_S_d0_1_2 h_S_) main_v2 main_c
  main_v3
-- ==== Kernel.lean ====
abbrev S32x16384x64 : Shape := ⟨3, ![32, 16384, 64]⟩
abbrev S16384x528 : Shape := ⟨2, ![16384, 528]⟩
abbrev S32x512x64 : Shape := ⟨3, ![32, 512, 64]⟩
abbrev S512x528 : Shape := ⟨2, ![512, 528]⟩
abbrev S512x32x64 : Shape := ⟨3, ![512, 32, 64]⟩
abbrev S512x32x32 : Shape := ⟨3, ![512, 32, 32]⟩
abbrev S512x1x32 : Shape := ⟨3, ![512, 1, 32]⟩
abbrev S512x32 : Shape := ⟨2, ![512, 32]⟩
abbrev S512x1x31 : Shape := ⟨3, ![512, 1, 31]⟩
abbrev S512x31 : Shape := ⟨2, ![512, 31]⟩
abbrev S512x1x30 : Shape := ⟨3, ![512, 1, 30]⟩
abbrev S512x30 : Shape := ⟨2, ![512, 30]⟩
abbrev S512x1x29 : Shape := ⟨3, ![512, 1, 29]⟩
abbrev S512x29 : Shape := ⟨2, ![512, 29]⟩
abbrev S512x1x28 : Shape := ⟨3, ![512, 1, 28]⟩
abbrev S512x28 : Shape := ⟨2, ![512, 28]⟩
abbrev S512x1x27 : Shape := ⟨3, ![512, 1, 27]⟩
abbrev S512x27 : Shape := ⟨2, ![512, 27]⟩
abbrev S512x1x26 : Shape := ⟨3, ![512, 1, 26]⟩
abbrev S512x26 : Shape := ⟨2, ![512, 26]⟩
abbrev S512x1x25 : Shape := ⟨3, ![512, 1, 25]⟩
abbrev S512x25 : Shape := ⟨2, ![512, 25]⟩
abbrev S512x1x24 : Shape := ⟨3, ![512, 1, 24]⟩
abbrev S512x24 : Shape := ⟨2, ![512, 24]⟩
abbrev S512x1x23 : Shape := ⟨3, ![512, 1, 23]⟩
abbrev S512x23 : Shape := ⟨2, ![512, 23]⟩
abbrev S512x1x22 : Shape := ⟨3, ![512, 1, 22]⟩
abbrev S512x22 : Shape := ⟨2, ![512, 22]⟩
abbrev S512x1x21 : Shape := ⟨3, ![512, 1, 21]⟩
abbrev S512x21 : Shape := ⟨2, ![512, 21]⟩
abbrev S512x1x20 : Shape := ⟨3, ![512, 1, 20]⟩
abbrev S512x20 : Shape := ⟨2, ![512, 20]⟩
abbrev S512x1x19 : Shape := ⟨3, ![512, 1, 19]⟩
abbrev S512x19 : Shape := ⟨2, ![512, 19]⟩
abbrev S512x1x18 : Shape := ⟨3, ![512, 1, 18]⟩
abbrev S512x18 : Shape := ⟨2, ![512, 18]⟩
abbrev S512x1x17 : Shape := ⟨3, ![512, 1, 17]⟩
abbrev S512x17 : Shape := ⟨2, ![512, 17]⟩
abbrev S512x1x16 : Shape := ⟨3, ![512, 1, 16]⟩
abbrev S512x16 : Shape := ⟨2, ![512, 16]⟩
abbrev S512x1x15 : Shape := ⟨3, ![512, 1, 15]⟩
abbrev S512x15 : Shape := ⟨2, ![512, 15]⟩
abbrev S512x1x14 : Shape := ⟨3, ![512, 1, 14]⟩
abbrev S512x14 : Shape := ⟨2, ![512, 14]⟩
abbrev S512x1x13 : Shape := ⟨3, ![512, 1, 13]⟩
abbrev S512x13 : Shape := ⟨2, ![512, 13]⟩
abbrev S512x1x12 : Shape := ⟨3, ![512, 1, 12]⟩
abbrev S512x12 : Shape := ⟨2, ![512, 12]⟩
abbrev S512x1x11 : Shape := ⟨3, ![512, 1, 11]⟩
abbrev S512x11 : Shape := ⟨2, ![512, 11]⟩
abbrev S512x1x10 : Shape := ⟨3, ![512, 1, 10]⟩
abbrev S512x10 : Shape := ⟨2, ![512, 10]⟩
abbrev S512x1x9 : Shape := ⟨3, ![512, 1, 9]⟩
abbrev S512x9 : Shape := ⟨2, ![512, 9]⟩
abbrev S512x1x8 : Shape := ⟨3, ![512, 1, 8]⟩
abbrev S512x8 : Shape := ⟨2, ![512, 8]⟩
abbrev S512x1x7 : Shape := ⟨3, ![512, 1, 7]⟩
abbrev S512x7 : Shape := ⟨2, ![512, 7]⟩
abbrev S512x1x6 : Shape := ⟨3, ![512, 1, 6]⟩
abbrev S512x6 : Shape := ⟨2, ![512, 6]⟩
abbrev S512x1x5 : Shape := ⟨3, ![512, 1, 5]⟩
abbrev S512x5 : Shape := ⟨2, ![512, 5]⟩
abbrev S512x1x4 : Shape := ⟨3, ![512, 1, 4]⟩
abbrev S512x4 : Shape := ⟨2, ![512, 4]⟩
abbrev S512x1x3 : Shape := ⟨3, ![512, 1, 3]⟩
abbrev S512x3 : Shape := ⟨2, ![512, 3]⟩
abbrev S512x1x2 : Shape := ⟨3, ![512, 1, 2]⟩
abbrev S512x2 : Shape := ⟨2, ![512, 2]⟩
abbrev S512x1x1 : Shape := ⟨3, ![512, 1, 1]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S32x16384x64, .f32⟩
  | .hbm, ⟨1, _⟩ => ⟨S16384x528, .f32⟩
  | .local _ .vmem, ⟨0, _⟩ => ⟨S32x512x64, .f32⟩
  | .local _ .vmem, ⟨1, _⟩ => ⟨S32x512x64, .f32⟩
  | .local _ .vmem, ⟨2, _⟩ => ⟨S512x528, .f32⟩
  | .local _ .vmem, ⟨3, _⟩ => ⟨S512x528, .f32⟩
  | _, _ => ⟨S32x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x528 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x512x64_S32x512x64_0_0_0 : ∀ a, (![0, 0, 0] : Fin 3 → Nat) a + S32x512x64.size a ≤ S32x512x64.size a
  h_S32x512x64 : 0 < S32x512x64.numel
  bitsLt_bf16_f32 : FTy.bits .bf16 < FTy.bits .f32
  transposes_S32x512x64_p1_0_2_S512x32x64 : S32x512x64.Transposes [1, 0, 2] S512x32x64
  slices_S512x32x32_o0_0_0_S512x1x32 : S512x32x32.Slices ![0, 0, 0] S512x1x32
  shapeCasts_S512x1x32_S512x32 : S512x1x32.ShapeCasts S512x32
  inb_S512x528_S512x32_0_0 : ∀ a, (![0, 0] : Fin 2 → Nat) a + S512x32.size a ≤ S512x528.size a
  h_S512x32 : 0 < S512x32.numel
  slices_S512x32x32_o0_1_1_S512x1x31 : S512x32x32.Slices ![0, 1, 1] S512x1x31
  shapeCasts_S512x1x31_S512x31 : S512x1x31.ShapeCasts S512x31
  inb_S512x528_S512x31_0_32 : ∀ a, (![0, 32] : Fin 2 → Nat) a + S512x31.size a ≤ S512x528.size a
  h_S512x31 : 0 < S512x31.numel
  slices_S512x32x32_o0_2_2_S512x1x30 : S512x32x32.Slices ![0, 2, 2] S512x1x30
  shapeCasts_S512x1x30_S512x30 : S512x1x30.ShapeCasts S512x30
  inb_S512x528_S512x30_0_63 : ∀ a, (![0, 63] : Fin 2 → Nat) a + S512x30.size a ≤ S512x528.size a
  h_S512x30 : 0 < S512x30.numel
  slices_S512x32x32_o0_3_3_S512x1x29 : S512x32x32.Slices ![0, 3, 3] S512x1x29
  shapeCasts_S512x1x29_S512x29 : S512x1x29.ShapeCasts S512x29
  inb_S512x528_S512x29_0_93 : ∀ a, (![0, 93] : Fin 2 → Nat) a + S512x29.size a ≤ S512x528.size a
  h_S512x29 : 0 < S512x29.numel
  slices_S512x32x32_o0_4_4_S512x1x28 : S512x32x32.Slices ![0, 4, 4] S512x1x28
  shapeCasts_S512x1x28_S512x28 : S512x1x28.ShapeCasts S512x28
  inb_S512x528_S512x28_0_122 : ∀ a, (![0, 122] : Fin 2 → Nat) a + S512x28.size a ≤ S512x528.size a
  h_S512x28 : 0 < S512x28.numel
  slices_S512x32x32_o0_5_5_S512x1x27 : S512x32x32.Slices ![0, 5, 5] S512x1x27
  shapeCasts_S512x1x27_S512x27 : S512x1x27.ShapeCasts S512x27
  inb_S512x528_S512x27_0_150 : ∀ a, (![0, 150] : Fin 2 → Nat) a + S512x27.size a ≤ S512x528.size a
  h_S512x27 : 0 < S512x27.numel
  slices_S512x32x32_o0_6_6_S512x1x26 : S512x32x32.Slices ![0, 6, 6] S512x1x26
  shapeCasts_S512x1x26_S512x26 : S512x1x26.ShapeCasts S512x26
  inb_S512x528_S512x26_0_177 : ∀ a, (![0, 177] : Fin 2 → Nat) a + S512x26.size a ≤ S512x528.size a
  h_S512x26 : 0 < S512x26.numel
  slices_S512x32x32_o0_7_7_S512x1x25 : S512x32x32.Slices ![0, 7, 7] S512x1x25
  shapeCasts_S512x1x25_S512x25 : S512x1x25.ShapeCasts S512x25
  inb_S512x528_S512x25_0_203 : ∀ a, (![0, 203] : Fin 2 → Nat) a + S512x25.size a ≤ S512x528.size a
  h_S512x25 : 0 < S512x25.numel
  slices_S512x32x32_o0_8_8_S512x1x24 : S512x32x32.Slices ![0, 8, 8] S512x1x24
  shapeCasts_S512x1x24_S512x24 : S512x1x24.ShapeCasts S512x24
  inb_S512x528_S512x24_0_228 : ∀ a, (![0, 228] : Fin 2 → Nat) a + S512x24.size a ≤ S512x528.size a
  h_S512x24 : 0 < S512x24.numel
  slices_S512x32x32_o0_9_9_S512x1x23 : S512x32x32.Slices ![0, 9, 9] S512x1x23
  shapeCasts_S512x1x23_S512x23 : S512x1x23.ShapeCasts S512x23
  inb_S512x528_S512x23_0_252 : ∀ a, (![0, 252] : Fin 2 → Nat) a + S512x23.size a ≤ S512x528.size a
  h_S512x23 : 0 < S512x23.numel
  slices_S512x32x32_o0_10_10_S512x1x22 : S512x32x32.Slices ![0, 10, 10] S512x1x22
  shapeCasts_S512x1x22_S512x22 : S512x1x22.ShapeCasts S512x22
  inb_S512x528_S512x22_0_275 : ∀ a, (![0, 275] : Fin 2 → Nat) a + S512x22.size a ≤ S512x528.size a
  h_S512x22 : 0 < S512x22.numel
  slices_S512x32x32_o0_11_11_S512x1x21 : S512x32x32.Slices ![0, 11, 11] S512x1x21
  shapeCasts_S512x1x21_S512x21 : S512x1x21.ShapeCasts S512x21
  inb_S512x528_S512x21_0_297 : ∀ a, (![0, 297] : Fin 2 → Nat) a + S512x21.size a ≤ S512x528.size a
  h_S512x21 : 0 < S512x21.numel
  slices_S512x32x32_o0_12_12_S512x1x20 : S512x32x32.Slices ![0, 12, 12] S512x1x20
  shapeCasts_S512x1x20_S512x20 : S512x1x20.ShapeCasts S512x20
  inb_S512x528_S512x20_0_318 : ∀ a, (![0, 318] : Fin 2 → Nat) a + S512x20.size a ≤ S512x528.size a
  h_S512x20 : 0 < S512x20.numel
  slices_S512x32x32_o0_13_13_S512x1x19 : S512x32x32.Slices ![0, 13, 13] S512x1x19
  shapeCasts_S512x1x19_S512x19 : S512x1x19.ShapeCasts S512x19
  inb_S512x528_S512x19_0_338 : ∀ a, (![0, 338] : Fin 2 → Nat) a + S512x19.size a ≤ S512x528.size a
  h_S512x19 : 0 < S512x19.numel
  slices_S512x32x32_o0_14_14_S512x1x18 : S512x32x32.Slices ![0, 14, 14] S512x1x18
  shapeCasts_S512x1x18_S512x18 : S512x1x18.ShapeCasts S512x18
  inb_S512x528_S512x18_0_357 : ∀ a, (![0, 357] : Fin 2 → Nat) a + S512x18.size a ≤ S512x528.size a
  h_S512x18 : 0 < S512x18.numel
  slices_S512x32x32_o0_15_15_S512x1x17 : S512x32x32.Slices ![0, 15, 15] S512x1x17
  shapeCasts_S512x1x17_S512x17 : S512x1x17.ShapeCasts S512x17
  inb_S512x528_S512x17_0_375 : ∀ a, (![0, 375] : Fin 2 → Nat) a + S512x17.size a ≤ S512x528.size a
  h_S512x17 : 0 < S512x17.numel
  slices_S512x32x32_o0_16_16_S512x1x16 : S512x32x32.Slices ![0, 16, 16] S512x1x16
  shapeCasts_S512x1x16_S512x16 : S512x1x16.ShapeCasts S512x16
  inb_S512x528_S512x16_0_392 : ∀ a, (![0, 392] : Fin 2 → Nat) a + S512x16.size a ≤ S512x528.size a
  h_S512x16 : 0 < S512x16.numel
  slices_S512x32x32_o0_17_17_S512x1x15 : S512x32x32.Slices ![0, 17, 17] S512x1x15
  shapeCasts_S512x1x15_S512x15 : S512x1x15.ShapeCasts S512x15
  inb_S512x528_S512x15_0_408 : ∀ a, (![0, 408] : Fin 2 → Nat) a + S512x15.size a ≤ S512x528.size a
  h_S512x15 : 0 < S512x15.numel
  slices_S512x32x32_o0_18_18_S512x1x14 : S512x32x32.Slices ![0, 18, 18] S512x1x14
  shapeCasts_S512x1x14_S512x14 : S512x1x14.ShapeCasts S512x14
  inb_S512x528_S512x14_0_423 : ∀ a, (![0, 423] : Fin 2 → Nat) a + S512x14.size a ≤ S512x528.size a
  h_S512x14 : 0 < S512x14.numel
  slices_S512x32x32_o0_19_19_S512x1x13 : S512x32x32.Slices ![0, 19, 19] S512x1x13
  shapeCasts_S512x1x13_S512x13 : S512x1x13.ShapeCasts S512x13
  inb_S512x528_S512x13_0_437 : ∀ a, (![0, 437] : Fin 2 → Nat) a + S512x13.size a ≤ S512x528.size a
  h_S512x13 : 0 < S512x13.numel
  slices_S512x32x32_o0_20_20_S512x1x12 : S512x32x32.Slices ![0, 20, 20] S512x1x12
  shapeCasts_S512x1x12_S512x12 : S512x1x12.ShapeCasts S512x12
  inb_S512x528_S512x12_0_450 : ∀ a, (![0, 450] : Fin 2 → Nat) a + S512x12.size a ≤ S512x528.size a
  h_S512x12 : 0 < S512x12.numel
  slices_S512x32x32_o0_21_21_S512x1x11 : S512x32x32.Slices ![0, 21, 21] S512x1x11
  shapeCasts_S512x1x11_S512x11 : S512x1x11.ShapeCasts S512x11
  inb_S512x528_S512x11_0_462 : ∀ a, (![0, 462] : Fin 2 → Nat) a + S512x11.size a ≤ S512x528.size a
  h_S512x11 : 0 < S512x11.numel
  slices_S512x32x32_o0_22_22_S512x1x10 : S512x32x32.Slices ![0, 22, 22] S512x1x10
  shapeCasts_S512x1x10_S512x10 : S512x1x10.ShapeCasts S512x10
  inb_S512x528_S512x10_0_473 : ∀ a, (![0, 473] : Fin 2 → Nat) a + S512x10.size a ≤ S512x528.size a
  h_S512x10 : 0 < S512x10.numel
  slices_S512x32x32_o0_23_23_S512x1x9 : S512x32x32.Slices ![0, 23, 23] S512x1x9
  shapeCasts_S512x1x9_S512x9 : S512x1x9.ShapeCasts S512x9
  inb_S512x528_S512x9_0_483 : ∀ a, (![0, 483] : Fin 2 → Nat) a + S512x9.size a ≤ S512x528.size a
  h_S512x9 : 0 < S512x9.numel
  slices_S512x32x32_o0_24_24_S512x1x8 : S512x32x32.Slices ![0, 24, 24] S512x1x8
  shapeCasts_S512x1x8_S512x8 : S512x1x8.ShapeCasts S512x8
  inb_S512x528_S512x8_0_492 : ∀ a, (![0, 492] : Fin 2 → Nat) a + S512x8.size a ≤ S512x528.size a
  h_S512x8 : 0 < S512x8.numel
  slices_S512x32x32_o0_25_25_S512x1x7 : S512x32x32.Slices ![0, 25, 25] S512x1x7
  shapeCasts_S512x1x7_S512x7 : S512x1x7.ShapeCasts S512x7
  inb_S512x528_S512x7_0_500 : ∀ a, (![0, 500] : Fin 2 → Nat) a + S512x7.size a ≤ S512x528.size a
  h_S512x7 : 0 < S512x7.numel
  slices_S512x32x32_o0_26_26_S512x1x6 : S512x32x32.Slices ![0, 26, 26] S512x1x6
  shapeCasts_S512x1x6_S512x6 : S512x1x6.ShapeCasts S512x6
  inb_S512x528_S512x6_0_507 : ∀ a, (![0, 507] : Fin 2 → Nat) a + S512x6.size a ≤ S512x528.size a
  h_S512x6 : 0 < S512x6.numel
  slices_S512x32x32_o0_27_27_S512x1x5 : S512x32x32.Slices ![0, 27, 27] S512x1x5
  shapeCasts_S512x1x5_S512x5 : S512x1x5.ShapeCasts S512x5
  inb_S512x528_S512x5_0_513 : ∀ a, (![0, 513] : Fin 2 → Nat) a + S512x5.size a ≤ S512x528.size a
  h_S512x5 : 0 < S512x5.numel
  slices_S512x32x32_o0_28_28_S512x1x4 : S512x32x32.Slices ![0, 28, 28] S512x1x4
  shapeCasts_S512x1x4_S512x4 : S512x1x4.ShapeCasts S512x4
  inb_S512x528_S512x4_0_518 : ∀ a, (![0, 518] : Fin 2 → Nat) a + S512x4.size a ≤ S512x528.size a
  h_S512x4 : 0 < S512x4.numel
  slices_S512x32x32_o0_29_29_S512x1x3 : S512x32x32.Slices ![0, 29, 29] S512x1x3
  shapeCasts_S512x1x3_S512x3 : S512x1x3.ShapeCasts S512x3
  inb_S512x528_S512x3_0_522 : ∀ a, (![0, 522] : Fin 2 → Nat) a + S512x3.size a ≤ S512x528.size a
  h_S512x3 : 0 < S512x3.numel
  slices_S512x32x32_o0_30_30_S512x1x2 : S512x32x32.Slices ![0, 30, 30] S512x1x2
  shapeCasts_S512x1x2_S512x2 : S512x1x2.ShapeCasts S512x2
  inb_S512x528_S512x2_0_525 : ∀ a, (![0, 525] : Fin 2 → Nat) a + S512x2.size a ≤ S512x528.size a
  h_S512x2 : 0 < S512x2.numel
  slices_S512x32x32_o0_31_31_S512x1x1 : S512x32x32.Slices ![0, 31, 31] S512x1x1
  shapeCasts_S512x1x1_S512x1 : S512x1x1.ShapeCasts S512x1
  inb_S512x528_S512x1_0_527 : ∀ a, (![0, 527] : Fin 2 → Nat) a + S512x1.size a ≤ S512x528.size a
  h_S512x1 : 0 < S512x1.numel
  dot_S512x32x64_S512x32x64_S512x32x32_2_2_1_1_0_0_wf : DotDims.WF S512x32x64 S512x32x64 S512x32x32 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x64.size a ≤ S32x16384x64.size a
  hwx0_0 : ∀ i : grid0.Coords, EltTy.bits .f32 = 32 ∨ (Rect.block (s := S32x16384x64) S32x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x528.size a ≤ S16384x528.size a
  hwx0_1 : ∀ i : grid0.Coords, EltTy.bits .f32 = 32 ∨ (Rect.block (s := S16384x528) S512x528.size (cc0_transform_1 i) (hinb0_1 i)).WholeWords (EltTy.packing .f32)

variable [Facts₀]

def dot_S512x32x64_S512x32x64_S512x32x32_2_2_1_1_0_0 : DotDims S512x32x64 S512x32x64 S512x32x32 where
  lhsContracting := [2]
  rhsContracting := [2]
  lhsNonContracting := [1]
  rhsNonContracting := [1]
  lhsBatch := [0]
  rhsBatch := [0]
  wf := dot_S512x32x64_S512x32x64_S512x32x32_2_2_1_1_0_0_wf

abbrev win0_0 : Pipeline.Window sig grid0 :=
  Pipeline.Window.ofSpec (Memref.whole main_arg0) S32x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x528.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x16384x64 : Shape := ⟨3, ![32, 16384, 64]⟩
abbrev S16384x32x64 : Shape := ⟨3, ![16384, 32, 64]⟩
abbrev S16384x32x32 : Shape := ⟨3, ![16384, 32, 32]⟩
abbrev S_ : Shape := ⟨0, ![]⟩
abbrev S32x32 : Shape := ⟨2, ![32, 32]⟩
abbrev S1024 : Shape := ⟨1, ![1024]⟩
abbrev S528 : Shape := ⟨1, ![528]⟩
abbrev S1024x1 : Shape := ⟨2, ![1024, 1]⟩
abbrev S528x1 : Shape := ⟨2, ![528, 1]⟩
abbrev S528x2 : Shape := ⟨2, ![528, 2]⟩
abbrev S16384x528 : Shape := ⟨2, ![16384, 528]⟩

abbrev nBuf : Space → Nat
  | .hbm => 138
  | .vmem => 0
  | .smem => 0
  | _ => 0

abbrev hbmTy0_0 (i : Nat) : BufTy := match i % 128 with
  | 0 => ⟨S32x16384x64, .f32⟩
  | 1 => ⟨S16384x32x64, .f32⟩
  | 2 => ⟨S16384x32x32, .f32⟩
  | 3 => ⟨S_, .f32⟩
  | 4 => ⟨S32x32, .f32⟩
  | 5 => ⟨S32x32, .i32⟩
  | 6 => ⟨S_, .i32⟩
  | 7 => ⟨S32x32, .i32⟩
  | 8 => ⟨S32x32, .i32⟩
  | 9 => ⟨S32x32, .i32⟩
  | 10 => ⟨S32x32, .i1⟩
  | 11 => ⟨S_, .f32⟩
  | 12 => ⟨S32x32, .f32⟩
  | 13 => ⟨S32x32, .f32⟩
  | 14 => ⟨S_, .f32⟩
  | 15 => ⟨S32x32, .f32⟩
  | 16 => ⟨S32x32, .i1⟩
  | 17 => ⟨S1024, .i1⟩
  | 18 => ⟨S1024, .i32⟩
  | 19 => ⟨S_, .i32⟩
  | 20 => ⟨S_, .i32⟩
  | 21 => ⟨S1024, .i32⟩
  | 22 => ⟨S_, .i32⟩
  | 23 => ⟨S528, .i32⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i1⟩
  | 31 => ⟨S_, .i32⟩
  | 32 => ⟨S1024, .i32⟩
  | 33 => ⟨S1024, .i32⟩
  | 34 => ⟨S1024, .i32⟩
  | 35 => ⟨S1024x1, .i32⟩
  | 36 => ⟨S_, .i32⟩
  | 37 => ⟨S1024, .i32⟩
  | 38 => ⟨S528, .i32⟩
  | 39 => ⟨S_, .i32⟩
  | 40 => ⟨S_, .i32⟩
  | 41 => ⟨S528, .i32⟩
  | 42 => ⟨S_, .i32⟩
  | 43 => ⟨S528, .i32⟩
  | 44 => ⟨S528, .i32⟩
  | 45 => ⟨S528, .i32⟩
  | 46 => ⟨S_, .i32⟩
  | 47 => ⟨S528, .i32⟩
  | 48 => ⟨S528, .i1⟩
  | 49 => ⟨S528, .i32⟩
  | 50 => ⟨S528, .i32⟩
  | 51 => ⟨S_, .i32⟩
  | 52 => ⟨S528, .i32⟩
  | 53 => ⟨S528, .i1⟩
  | 54 => ⟨S528, .i1⟩
  | 55 => ⟨S_, .i32⟩
  | 56 => ⟨S528, .i32⟩
  | 57 => ⟨S528, .i32⟩
  | 58 => ⟨S528, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S528, .i32⟩
  | 66 => ⟨S528, .i32⟩
  | 67 => ⟨S_, .i32⟩
  | 68 => ⟨S528, .i32⟩
  | 69 => ⟨S528, .i1⟩
  | 70 => ⟨S_, .i32⟩
  | 71 => ⟨S528, .i32⟩
  | 72 => ⟨S528, .i1⟩
  | 73 => ⟨S_, .i32⟩
  | 74 => ⟨S_, .i1⟩
  | 75 => ⟨S528, .i1⟩
  | 76 => ⟨S528, .i1⟩
  | 77 => ⟨S528, .i1⟩
  | 78 => ⟨S528, .i32⟩
  | 79 => ⟨S528, .i32⟩
  | 80 => ⟨S528, .i32⟩
  | 81 => ⟨S_, .i32⟩
  | 82 => ⟨S528, .i32⟩
  | 83 => ⟨S528, .i32⟩
  | 84 => ⟨S528, .i32⟩
  | 85 => ⟨S_, .i32⟩
  | 86 => ⟨S528, .i32⟩
  | 87 => ⟨S528, .i1⟩
  | 88 => ⟨S528, .i32⟩
  | 89 => ⟨S528, .i32⟩
  | 90 => ⟨S_, .i32⟩
  | 91 => ⟨S528, .i32⟩
  | 92 => ⟨S528, .i1⟩
  | 93 => ⟨S528, .i1⟩
  | 94 => ⟨S_, .i32⟩
  | 95 => ⟨S528, .i32⟩
  | 96 => ⟨S528, .i32⟩
  | 97 => ⟨S528, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S528, .i32⟩
  | 105 => ⟨S528, .i32⟩
  | 106 => ⟨S_, .i32⟩
  | 107 => ⟨S528, .i32⟩
  | 108 => ⟨S528, .i1⟩
  | 109 => ⟨S_, .i32⟩
  | 110 => ⟨S528, .i32⟩
  | 111 => ⟨S528, .i1⟩
  | 112 => ⟨S_, .i32⟩
  | 113 => ⟨S_, .i1⟩
  | 114 => ⟨S528, .i1⟩
  | 115 => ⟨S528, .i1⟩
  | 116 => ⟨S528, .i1⟩
  | 117 => ⟨S528, .i32⟩
  | 118 => ⟨S528, .i32⟩
  | 119 => ⟨S528, .i32⟩
  | 120 => ⟨S_, .i32⟩
  | 121 => ⟨S528, .i32⟩
  | 122 => ⟨S528, .i1⟩
  | 123 => ⟨S_, .i32⟩
  | 124 => ⟨S528, .i32⟩
  | 125 => ⟨S528, .i32⟩
  | 126 => ⟨S528, .i32⟩
  | 127 => ⟨S_, .i32⟩
  | _ => ⟨S32x16384x64, .f32⟩

abbrev hbmTy0_1 (i : Nat) : BufTy := match i % 128 with
  | 0 => ⟨S528, .i32⟩
  | 1 => ⟨S528, .i1⟩
  | 2 => ⟨S_, .i32⟩
  | 3 => ⟨S528, .i32⟩
  | 4 => ⟨S528, .i32⟩
  | 5 => ⟨S528, .i32⟩
  | 6 => ⟨S528x1, .i32⟩
  | 7 => ⟨S528x1, .i32⟩
  | 8 => ⟨S528x2, .i32⟩
  | 9 => ⟨S16384x528, .f32⟩
  | _ => ⟨S32x16384x64, .f32⟩

abbrev hbmTy (i : Nat) : BufTy := match i / 128 with
  | 0 => hbmTy0_0 i
  | 1 => hbmTy0_1 i
  | _ => ⟨S32x16384x64, .f32⟩

abbrev bufTy : (tb : Table) → Fin (tcTables nBuf tb) → BufTy
  | .hbm, ⟨i, _⟩ => hbmTy i
  | _, _ => ⟨S32x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_call1_v0 : Ref sig .tc := ⟨.hbm, 17, rfl⟩
abbrev main_call1_v1 : Ref sig .tc := ⟨.hbm, 18, rfl⟩
abbrev main_call1_call0_c : Ref sig .tc := ⟨.hbm, 19, rfl⟩
abbrev main_call1_call0_v0 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_c_1 : Ref sig .tc := ⟨.hbm, 24, rfl⟩
abbrev main_call2_v0 : Ref sig .tc := ⟨.hbm, 25, rfl⟩
abbrev main_call2_v1 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_call3_call0_c : Ref sig .tc := ⟨.hbm, 39, rfl⟩
abbrev main_call3_call0_v0 : Ref sig .tc := ⟨.hbm, 40, rfl⟩
abbrev main_v17 : Ref sig .tc := ⟨.hbm, 41, rfl⟩
abbrev main_c_5 : Ref sig .tc := ⟨.hbm, 42, rfl⟩
abbrev main_call4_v0 : Ref sig .tc := ⟨.hbm, 43, rfl⟩
abbrev main_call4_v1 : Ref sig .tc := ⟨.hbm, 44, rfl⟩
abbrev main_call4_v2 : Ref sig .tc := ⟨.hbm, 45, rfl⟩
abbrev main_call4_v3 : Ref sig .tc := ⟨.hbm, 46, rfl⟩
abbrev main_call4_v4 : Ref sig .tc := ⟨.hbm, 47, rfl⟩
abbrev main_call4_v5 : Ref sig .tc := ⟨.hbm, 48, rfl⟩
abbrev main_call4_v6 : Ref sig .tc := ⟨.hbm, 49, rfl⟩
abbrev main_call4_v7 : Ref sig .tc := ⟨.hbm, 50, rfl⟩
abbrev main_call4_c : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_c_0 : Ref sig .tc := ⟨.hbm, 55, rfl⟩
abbrev main_call4_v11 : Ref sig .tc := ⟨.hbm, 56, rfl⟩
abbrev main_call4_v12 : Ref sig .tc := ⟨.hbm, 57, rfl⟩
abbrev main_v18 : Ref sig .tc := ⟨.hbm, 58, rfl⟩
abbrev main_c_6 : Ref sig .tc := ⟨.hbm, 59, rfl⟩
abbrev main_call5_v0 : Ref sig .tc := ⟨.hbm, 60, rfl⟩
abbrev main_call5_c : Ref sig .tc := ⟨.hbm, 61, rfl⟩
abbrev main_call5_v1 : Ref sig .tc := ⟨.hbm, 62, rfl⟩
abbrev main_call5_c_0 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_call5_c_1 : Ref sig .tc := ⟨.hbm, 67, rfl⟩
abbrev main_call5_v5 : Ref sig .tc := ⟨.hbm, 68, rfl⟩
abbrev main_call5_v6 : Ref sig .tc := ⟨.hbm, 69, rfl⟩
abbrev main_call5_c_2 : Ref sig .tc := ⟨.hbm, 70, rfl⟩
abbrev main_call5_v7 : Ref sig .tc := ⟨.hbm, 71, rfl⟩
abbrev main_call5_v8 : Ref sig .tc := ⟨.hbm, 72, rfl⟩
abbrev main_call5_c_3 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_call5_v12 : Ref sig .tc := ⟨.hbm, 77, rfl⟩
abbrev main_call5_v13 : Ref sig .tc := ⟨.hbm, 78, rfl⟩
abbrev main_call5_v14 : Ref sig .tc := ⟨.hbm, 79, rfl⟩
abbrev main_v19 : Ref sig .tc := ⟨.hbm, 80, rfl⟩
abbrev main_c_7 : Ref sig .tc := ⟨.hbm, 81, rfl⟩
abbrev main_call6_v0 : Ref sig .tc := ⟨.hbm, 82, rfl⟩
abbrev main_call6_v1 : Ref sig .tc := ⟨.hbm, 83, rfl⟩
abbrev main_call6_v2 : Ref sig .tc := ⟨.hbm, 84, rfl⟩
abbrev main_call6_v3 : Ref sig .tc := ⟨.hbm, 85, rfl⟩
abbrev main_call6_v4 : Ref sig .tc := ⟨.hbm, 86, rfl⟩
abbrev main_call6_v5 : Ref sig .tc := ⟨.hbm, 87, rfl⟩
abbrev main_call6_v6 : Ref sig .tc := ⟨.hbm, 88, rfl⟩
abbrev main_call6_v7 : Ref sig .tc := ⟨.hbm, 89, rfl⟩
abbrev main_call6_c : Ref sig .tc := ⟨.hbm, 90, rfl⟩
abbrev main_call6_v8 : Ref sig .tc := ⟨.hbm, 91, rfl⟩
abbrev main_call6_v9 : Ref sig .tc := ⟨.hbm, 92, rfl⟩
abbrev main_call6_v10 : Ref sig .tc := ⟨.hbm, 93, rfl⟩
abbrev main_call6_c_0 : Ref sig .tc := ⟨.hbm, 94, rfl⟩
abbrev main_call6_v11 : Ref sig .tc := ⟨.hbm, 95, rfl⟩
abbrev main_call6_v12 : Ref sig .tc := ⟨.hbm, 96, rfl⟩
abbrev main_v20 : Ref sig .tc := ⟨.hbm, 97, rfl⟩
abbrev main_c_8 : Ref sig .tc := ⟨.hbm, 98, rfl⟩
abbrev main_call7_v0 : Ref sig .tc := ⟨.hbm, 99, rfl⟩
abbrev main_call7_c : Ref sig .tc := ⟨.hbm, 100, rfl⟩
abbrev main_call7_v1 : Ref sig .tc := ⟨.hbm, 101, rfl⟩
abbrev main_call7_c_0 : Ref sig .tc := ⟨.hbm, 102, rfl⟩
abbrev main_call7_v2 : Ref sig .tc := ⟨.hbm, 103, rfl⟩
abbrev main_call7_v3 : Ref sig .tc := ⟨.hbm, 104, rfl⟩
abbrev main_call7_v4 : Ref sig .tc := ⟨.hbm, 105, rfl⟩
abbrev main_call7_c_1 : Ref sig .tc := ⟨.hbm, 106, rfl⟩
abbrev main_call7_v5 : Ref sig .tc := ⟨.hbm, 107, rfl⟩
abbrev main_call7_v6 : Ref sig .tc := ⟨.hbm, 108, rfl⟩
abbrev main_call7_c_2 : Ref sig .tc := ⟨.hbm, 109, rfl⟩
abbrev main_call7_v7 : Ref sig .tc := ⟨.hbm, 110, rfl⟩
abbrev main_call7_v8 : Ref sig .tc := ⟨.hbm, 111, rfl⟩
abbrev main_call7_c_3 : Ref sig .tc := ⟨.hbm, 112, rfl⟩
abbrev main_call7_v9 : Ref sig .tc := ⟨.hbm, 113, rfl⟩
abbrev main_call7_v10 : Ref sig .tc := ⟨.hbm, 114, rfl⟩
abbrev main_call7_v11 : Ref sig .tc := ⟨.hbm, 115, rfl⟩
abbrev main_call7_v12 : Ref sig .tc := ⟨.hbm, 116, rfl⟩
abbrev main_call7_v13 : Ref sig .tc := ⟨.hbm, 117, rfl⟩
abbrev main_call7_v14 : Ref sig .tc := ⟨.hbm, 118, rfl⟩
abbrev main_v21 : Ref sig .tc := ⟨.hbm, 119, rfl⟩
abbrev main_c_9 : Ref sig .tc := ⟨.hbm, 120, rfl⟩
abbrev main_v22 : Ref sig .tc := ⟨.hbm, 121, rfl⟩
abbrev main_v23 : Ref sig .tc := ⟨.hbm, 122, rfl⟩
abbrev main_c_10 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_c_11 : Ref sig .tc := ⟨.hbm, 127, rfl⟩
abbrev main_v27 : Ref sig .tc := ⟨.hbm, 128, rfl⟩
abbrev main_v28 : Ref sig .tc := ⟨.hbm, 129, rfl⟩
abbrev main_c_12 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_v35 : Ref sig .tc := ⟨.hbm, 137, rfl⟩

abbrev nD : Nat := 1
abbrev τ : Topo := Topo.v7x

variable {F : FTy → Type} [FloatOps F]

class Facts₀ : Prop where
  transposes_S32x16384x64_S16384x32x64_1_0_2 : S32x16384x64.Transposes [1, 0, 2] S16384x32x64
  bcast_S_S32x32 : S_.BroadcastsInDim S32x32 (![] : Fin 0 → Fin S32x32.rank)
  shapeCasts_S32x32_S1024 : S32x32.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S528 : S_.BroadcastsInDim S528 (![] : Fin 0 → Fin S528.rank)
  bcast_S_S1024 : S_.BroadcastsInDim S1024 (![] : Fin 0 → Fin S1024.rank)
  bcast_S1024_S1024x1_0 : S1024.BroadcastsInDim S1024x1 (![0] : Fin 1 → Fin S1024x1.rank)
  reduceWindows_S528_S528_w528s1p527_0 : S528.ReduceWindows (![528] : Fin 1 → Nat) ![1] ![527] ![0] S528
  bcast_S528_S528x1_0 : S528.BroadcastsInDim S528x1 (![0] : Fin 1 → Fin S528x1.rank)
  concatenates_S528x1_S528x1_S528x2_d1 : Shape.Concatenates [S528x1, S528x1] S528x2 1
  dot_S16384x32x64_S16384x32x64_S16384x32x32_2_2_1_1_0_0_wf : DotDims.WF S16384x32x64 S16384x32x64 S16384x32x32 [2] [2] [1] [1] [0] [0]
  scatter_S528_S1024x1_S1024_n_0_0_1_wf : ScatterDims.WF S528 S1024x1 S1024 [] [0] [0] 1
  gather_S16384x32x32_S528x2_S16384x528_0_12_n_n_12_1_1638411_wf : GatherDims.WF S16384x32x32 S528x2 S16384x528 [0] [1, 2] [] [1, 2] [] 1 ![16384, 1, 1]

variable [Facts₀]

def dot_S16384x32x64_S16384x32x64_S16384x32x32_2_2_1_1_0_0 : DotDims S16384x32x64 S16384x32x64 S16384x32x32 where
  lhsContracting := [2]
  rhsContracting := [2]
  lhsNonContracting := [1]
  rhsNonContracting := [1]
  lhsBatch := [0]
  rhsBatch := [0]
  wf := dot_S16384x32x64_S16384x32x64_S16384x32x32_2_2_1_1_0_0_wf
def scatter_S528_S1024x1_S1024_n_0_0_1 : ScatterDims S528 S1024x1 S1024 where
  updateWindowDims := []
  insertedWindowDims := [0]
  scatterDimsToOperandDims := [0]
  indexVectorDim := 1
  wf := scatter_S528_S1024x1_S1024_n_0_0_1_wf
def gather_S16384x32x32_S528x2_S16384x528_0_12_n_n_12_1_1638411 : GatherDims S16384x32x32 S528x2 S16384x528 where
  offsetDims := [0]
  collapsedSliceDims := [1, 2]
  operandBatchingDims := []
  startIndicesBatchingDims := []
  startIndexMap := [1, 2]
  indexVectorDim := 1
  sliceSizes := ![16384, 1, 1]
  wf := gather_S16384x32x32_S528x2_S16384x528_0_12_n_n_12_1_1638411_wf

class Facts : Prop extends Facts₀ where

variable [Facts]
-- ==== Proof.GramBlock.lean ====
/-
  The kernel body's arithmetic, read at an index, at the exact (extended-real) values.

  The body loads a block x0[c, t, d] (32 features, 512 batch rows, 64 coordinates), narrows it to bf16 (the identity on
  exact values), swaps the first two axes, and multiplies the result with itself, batched over t and contracted over d:
      gram[t, c, e] = Σ_d x0[c, t, d] · x0[e, t, d].
  Each of its 32 stores then writes, for one feature c, the entries gram[t, c, c], …, gram[t, c, 31] of every row t:
  a unit-stride slice at offsets (0, c, c) of extents (512, 1, w), w = 32 - c, with the unit axis dropped.
-/
import proofs.«121324_j53721450938755_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Gram

open Cert.KernelIdeal Cert.KernelIdeal.Gen Idealize.ShloMosaic Idealize.ShloMosaic.ValueIdx

/-- The batched product of the block with itself: entry (t, c, e) is the inner product over the 64 coordinates of
    features c and e of batch row t. -/
theorem gram_apply (x0 : Vec Ideal S32x512x64 .f32) (t : Fin 512) (c e : Fin 32) :
    k0_pay4 (F := Ideal) x0 (ix3 t c e) = ∑ d : Fin 64, x0 (ix3 c t d) * x0 (ix3 e t d) := by
  unfold k0_pay4
  dsimp only
  simp only [matmul]
  rw [Ideal.matmul_constant_zero_apply]
  refine (Equiv.sum_comp (contrEquiv1 dot_S512x32x64_S512x32x64_S512x32x32_2_2_1_1_0_0 64 rfl rfl).symm _).symm.trans ?_
  refine Finset.sum_congr rfl fun d _ => ?_
  congr 1
  · refine (transpose_apply _ _ _ _ (ix3 c t d) fun b => ?_).trans rfl
    match b with
    | ⟨0, _⟩ => rfl
    | ⟨1, _⟩ => rfl
    | ⟨2, _⟩ =>
      exact ((dot_S512x32x64_S512x32x64_S512x32x32_2_2_1_1_0_0.lhsIdx_val_of_single (cl := 2) rfl _ _).trans
        (contrEquiv1_symm_val _ 64 rfl rfl d)).symm
  · refine (transpose_apply _ _ _ _ (ix3 e t d) fun b => ?_).trans rfl
    match b with
    | ⟨0, _⟩ => rfl
    | ⟨1, _⟩ => rfl
    | ⟨2, _⟩ =>
      exact ((dot_S512x32x64_S512x32x64_S512x32x32_2_2_1_1_0_0.rhsIdx_val_of_single (cr := 2) rfl _ _).trans
        (contrEquiv1_symm_val _ 64 rfl rfl d)).symm

/-- A row slice of the product with its unit axis dropped: offsets (0, i, i), extents (512, 1, w); entry (t, q) is
    entry (t, i, i + q) of the product. -/
theorem slice_row_apply (i w : Nat) (v3 : FVec Ideal S512x32x32 .f32)
    (hs : S512x32x32.Slices ![0, i, i] (⟨3, ![512, 1, w]⟩ : Shape))
    (hc : (⟨3, ![512, 1, w]⟩ : Shape).ShapeCasts (⟨2, ![512, w]⟩ : Shape))
    (t : Fin 512) (q : Fin w) (hi : i < 32) (hq : i + q.val < 32) :
    shapeCast (⟨2, ![512, w]⟩ : Shape) (extractStridedSlice (⟨3, ![512, 1, w]⟩ : Shape) ![0, i, i] v3 hs) hc (ix2 t q)
      = v3 (ix3 t ⟨i, hi⟩ ⟨i + q.val, hq⟩) := by
  rw [shapeCast_apply _ hc (ix2 t q) (ix3 t (0 : Fin 1) q)
    (by rw [Shape.rowMajor_val_three, Shape.rowMajor_val_two]
        show (t.val * 1 + (0 : Fin 1).val) * w + q.val = t.val * w + q.val
        simp)]
  refine extractStridedSlice_apply _ _ hs _ _ fun a => ?_
  match a with
  | ⟨0, _⟩ => simp
  | ⟨1, _⟩ => simp
  | ⟨2, _⟩ => simp

end Cert.KernelIdeal.Gram

end
-- ==== Proof.TriSpec.lean ====
/-
  The specification both programs meet.

  The upper-triangular entries (diagonal included) of a 32 × 32 matrix, listed in row-major order, number
  32 + 31 + … + 1 = 528.  Row `i` contributes the 32 - i entries (i, i), (i, i+1), …, (i, 31), and they occupy the
  positions `start i`, …, `start i + 31 - i` of the list, where `start i = 32 i - i (i - 1) / 2` counts the entries of
  the rows before `i`.  `row n` and `col n` invert this enumeration: the `n`-th entry of the list is (row n, col n).

  For an array x[c, b, d] (32 features, 16384 batch elements, 64 coordinates) the result is, at batch element `b`
  and list position `n`, the inner product of the feature vectors `row n` and `col n` of that batch element:
      G x (b, n) = Σ_d x[row n, b, d] · x[col n, b, d].
-/
import Idealize.ShloMosaic.PureOps.Ideal
import Idealize.ShloMosaic.Lib.ValueIdx

namespace Tri

/-- The number of upper-triangular entries in the rows before row `i`. -/
def start (i : Nat) : Nat := 32 * i - i * (i - 1) / 2

/-- The row of the `n`-th upper-triangular entry: the number of rows `1 ≤ i ≤ 31` starting at or before `n`. -/
def row (n : Nat) : Nat := ((List.range 32).filter fun i => decide (0 < i ∧ start i ≤ n)).length

/-- The column of the `n`-th upper-triangular entry: its row plus its offset inside the row. -/
def col (n : Nat) : Nat := row n + (n - start (row n))

theorem row_lt : ∀ n : Fin 528, row n.val < 32 := by decide
theorem col_lt : ∀ n : Fin 528, col n.val < 32 := by decide
theorem row_le_col : ∀ n : Fin 528, row n.val ≤ col n.val := by decide

/-- The entry at offset `q` of row `i` is entry number `start i + q` of the list, and conversely. -/
theorem row_start_add : ∀ i q : Fin 32, q.val < 32 - i.val → row (start i.val + q.val) = i.val := by decide
theorem col_start_add : ∀ i q : Fin 32, q.val < 32 - i.val → col (start i.val + q.val) = i.val + q.val := by decide
theorem start_add_lt : ∀ i q : Fin 32, q.val < 32 - i.val → start i.val + q.val < 528 := by decide

/-- Position of the `n`-th upper-triangular entry in the row-major listing of ALL 1024 entries of the matrix. -/
def pos (n : Nat) : Nat := 32 * row n + col n

def rowF (n : Fin 528) : Fin 32 := ⟨row n.val, row_lt n⟩
def colF (n : Fin 528) : Fin 32 := ⟨col n.val, col_lt n⟩

open Idealize.ShloMosaic Idealize.ShloMosaic.ValueIdx

/-- Pairwise inner products of the feature vectors, the upper triangle listed in row-major order. -/
noncomputable def G (x : FVec Ideal ⟨3, ![32, 16384, 64]⟩ .f32) : FVec Ideal ⟨2, ![16384, 528]⟩ .f32 :=
  fun j => ∑ d : Fin 64, x (ix3 (rowF (j 1)) (j 0) d) * x (ix3 (colF (j 1)) (j 0) d)

theorem G_apply (x : FVec Ideal ⟨3, ![32, 16384, 64]⟩ .f32) (b : Fin 16384) (n : Fin 528) :
    G x (ix2 b n) = ∑ d : Fin 64, x (ix3 (rowF n) b d) * x (ix3 (colF n) b d) := rfl

end Tri
-- ==== Proof.BlockValue.lean ====
/-
  What one grid point leaves in its output block, as ONE function of the input block.

  The body fills the 512 × 528 output block by 32 stores: store number i (i = 0, …, 31) writes the columns
  start i, …, start i + 31 - i, where start i = 32 i - i (i - 1) / 2, and puts into column start i + q of row t the
  product entry gram[t, i, i + q] = Σ_d x0[i, t, d] · x0[i + q, t, d].  Since the list position n = start i + q is the
  n-th upper-triangular entry (row n, col n) = (i, i + q), every store writes the restriction to its rectangle of
      B x0 (t, n) = Σ_d x0[row n, t, d] · x0[col n, t, d],
  and the rectangles cover the block: the block ends holding B x0.
-/
import proofs.«121324_j53721450938755_1_alg».proof.Proof.Gen.KernelIdeal.Frame
import proofs.«121324_j53721450938755_1_alg».proof.Proof.GramBlock
import proofs.«121324_j53721450938755_1_alg».proof.Proof.TriSpec

set_option maxRecDepth 16384

noncomputable section

namespace Cert.KernelIdeal.Block

open Cert.KernelIdeal Cert.KernelIdeal.Gen Idealize.ShloMosaic Idealize.ShloMosaic.TcCoe Idealize.ShloMosaic.ValueIdx
open Idealize.SL.Sem Idealize.ShloMosaic.Tactic

/-- The block function: row t, list position n holds the inner product of features `row n` and `col n` of batch row t. -/
def B (x0 : Vec Ideal S32x512x64 .f32) : Vec Ideal S512x528 .f32 :=
  fun y => ∑ d : Fin 64, x0 (ix3 (Tri.rowF (y 1)) (y 0) d) * x0 (ix3 (Tri.colF (y 1)) (y 0) d)

theorem hz3 : (![0, 0, 0] : Fin 3 → Nat) = fun _ => 0 := funext fun a => by fin_cases a <;> rfl

/-- The store of feature i (width w = 32 - i, first column `off = start i`) writes the block function on its rectangle. -/
theorem piece_eq (x0 : Vec Ideal S32x512x64 .f32) (i w off : Nat) (hiw : i + w = 32) (hoff : off = Tri.start i)
    (inb : ∀ a, (![0, off] : Fin 2 → Nat) a + (![512, w] : Fin 2 → Nat) a ≤ S512x528.size a)
    (hs : S512x32x32.Slices ![0, i, i] (⟨3, ![512, 1, w]⟩ : Shape))
    (hc : (⟨3, ![512, 1, w]⟩ : Shape).ShapeCasts (⟨2, ![512, w]⟩ : Shape))
    (x : (Rect.unit (s := S512x528) ![0, off] ![512, w] inb).shape.Idx) :
    shapeCast (⟨2, ![512, w]⟩ : Shape) (extractStridedSlice (⟨3, ![512, 1, w]⟩ : Shape) ![0, i, i] (k0_pay4 (F := Ideal) x0) hs) hc x
      = B x0 ((Rect.unit (s := S512x528) ![0, off] ![512, w] inb).emb x) := by
  subst hoff
  obtain ⟨t, q, rfl⟩ : ∃ (t : Fin 512) (q : Fin w), x = ix2 t q := ⟨x 0, x 1, eq_ix2 x⟩
  have hi : i < 32 := by have := q.isLt; omega
  have hq : i + q.val < 32 := by have := q.isLt; omega
  rw [Gram.slice_row_apply i w _ hs hc t q hi hq, Gram.gram_apply]
  have e0 : ((Rect.unit (s := S512x528) ![0, Tri.start i] ![512, w] inb).emb (ix2 t q)) 0 = t :=
    Fin.ext (by show 0 + 1 * t.val = t.val; omega)
  have e1 : (((Rect.unit (s := S512x528) ![0, Tri.start i] ![512, w] inb).emb (ix2 t q)) 1).val = Tri.start i + q.val := by
    show Tri.start i + 1 * q.val = _; omega
  have hql : q.val < 32 - i := by have := q.isLt; omega
  have hr : Tri.rowF (((Rect.unit (s := S512x528) ![0, Tri.start i] ![512, w] inb).emb (ix2 t q)) 1) = ⟨i, hi⟩ :=
    Fin.ext (by show Tri.row _ = i; rw [e1]; exact Tri.row_start_add ⟨i, hi⟩ ⟨q.val, by omega⟩ hql)
  have hcl : Tri.colF (((Rect.unit (s := S512x528) ![0, Tri.start i] ![512, w] inb).emb (ix2 t q)) 1) = ⟨i + q.val, hq⟩ :=
    Fin.ext (by show Tri.col _ = i + q.val; rw [e1]; exact Tri.col_start_add ⟨i, hi⟩ ⟨q.val, by omega⟩ hql)
  show _ = ∑ d : Fin 64, x0 (ix3 (Tri.rowF (((Rect.unit (s := S512x528) ![0, Tri.start i] ![512, w] inb).emb (ix2 t q)) 1))
      (((Rect.unit (s := S512x528) ![0, Tri.start i] ![512, w] inb).emb (ix2 t q)) 0) d)
    * x0 (ix3 (Tri.colF (((Rect.unit (s := S512x528) ![0, Tri.start i] ![512, w] inb).emb (ix2 t q)) 1))
      (((Rect.unit (s := S512x528) ![0, Tri.start i] ![512, w] inb).emb (ix2 t q)) 0) d)
  rw [e0, hr, hcl]

/-- Every piece the body's run leaves in the output block is the block function on its rectangle. -/
theorem pieces_block (c : Dev nD) (i : grid0.Coords) (arg1 : Memref sig .tc .vmem S32x512x64 .f32) (harg1 : arg1.IsWhole)
    (arg2 : Memref sig .tc .vmem S512x528 .f32) (harg2 : arg2.IsWhole) (x0 : Vec Ideal S32x512x64 .f32) :
    ∀ p ∈ (kernelRun0_A (F := Ideal) c i arg1 harg1 arg2 harg2 x0).1, ∀ x : p.1.shape.Idx, p.2 x = B x0 (p.1.emb x) := by
  unfold kernelRun0_A
  dsimp only
  sl_unfold_words
  simp only [View.readAt_eq_ld, harg1.read_unread, View.ld_unit_zero (S := S32x512x64) hz3]
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals (intro x; exact piece_eq x0 _ _ _ (by decide) (by decide) (by decide) (by decide) (by decide) x)

/-- So the block a point leaves is the block function of its input block. -/
theorem out_eq (c : Dev nD) (i : grid0.Coords) (arg1 : Memref sig .tc .vmem S32x512x64 .f32) (harg1 : arg1.IsWhole)
    (arg2 : Memref sig .tc .vmem S512x528 .f32) (harg2 : arg2.IsWhole) (x0 : Vec Ideal S32x512x64 .f32) :
    out0_A_1 (F := Ideal) c i arg1 harg1 arg2 harg2 x0 = B x0 := by
  unfold out0_A_1
  rw [View.read_writes_eq_canon _ _ _ (cover0_A_1 c i arg1 harg1 arg2 harg2 x0)]
  funext y
  exact View.canon_apply_of_pieces (B x0) _ (pieces_block c i arg1 harg1 arg2 harg2 x0) y
    (cover0_A_1 c i arg1 harg1 arg2 harg2 x0 y)

end Cert.KernelIdeal.Block

end
-- ==== Proof.KernelValue.lean ====
/-
  The idealized kernel's run, read as a value: its result array is Tri.G of its argument.

  The grid has 32 points; point t stages rows 512 t, …, 512 t + 511 of the argument (block index (0, t, 0) of extents
  (32, 512, 64)) and writes back rows 512 t, …, 512 t + 511 of the result (block index (t, 0) of extents (512, 528)).
  The block a point leaves is the block function of its input block (BlockValue), the input block at (c, r, d) is the
  argument at (c, 512 t + r, d), so what point t writes back is the restriction of Tri.G of the argument to its rows;
  the 32 row bands cover the result.
-/
import proofs.«121324_j53721450938755_1_alg».proof.Proof.Gen.KernelIdeal.Value
import proofs.«121324_j53721450938755_1_alg».proof.Proof.BlockValue
import proofs.«121324_j53721450938755_1_alg».proof.Proof.TriSpec

set_option maxRecDepth 16384

noncomputable section

namespace Cert.KernelIdeal.KValue

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The printed index maps over the grid: the input block index is (0, t, 0), the output block index (t, 0). -/
theorem idx_facts : ∀ t : Fin cfg0.N, win0_0.index t (0 : Fin 3) = 0 ∧ win0_0.index t (1 : Fin 3) = t.val
    ∧ win0_0.index t (2 : Fin 3) = 0 ∧ win0_1.index t (0 : Fin 2) = t.val ∧ win0_1.index t (1 : Fin 2) = 0 :=
  (by decide +kernel : ∀ t : Fin grid0.N, _)

/-- The input block of point t at (c, r, d) is the argument at (c, 512 t + r, d), written through the output block's
    row: the rows of the two blocks move together. -/
theorem iblk_apply (c : Dev nD) (t : Fin cfg0.N) (cc : Fin 32) (r : Fin 512) (d : Fin 64) (y : S512x528.Idx) (hy : (y 0).val = r.val) :
    iblk m c 0 t (ix3 cc r d) = (V m c main_arg0 : S32x16384x64.Idx → Ideal .f32) (ix3 cc ((((cfg0.win 1).blk t).view.emb y) 0) d) := by
  obtain ⟨e0, e1, e2, e3, e4⟩ := idx_facts t
  show (V m c main_arg0 : S32x16384x64.Idx → Ideal .f32) (((cfg0.win 0).blk t).view.emb (ix3 cc r d)) = _
  refine congrArg _ (funext fun a => Fin.ext ?_)
  match a with
  | ⟨0, _⟩ => show win0_0.index t (0 : Fin 3) * 32 + 1 * cc.val = cc.val; omega
  | ⟨1, _⟩ => show win0_0.index t (1 : Fin 3) * 512 + 1 * r.val = win0_1.index t (0 : Fin 2) * 512 + 1 * (y 0).val; omega
  | ⟨2, _⟩ => show win0_0.index t (2 : Fin 3) * 64 + 1 * d.val = d.val; omega

/-- WHAT POINT t WRITES BACK is block t of Tri.G of the argument. -/
theorem flushed_eq (c : Dev nD) (t : Fin cfg0.N) :
    (dats m 0 c).flushed 1 t = ((cfg0.win 1).blk t).view.read (Elt Ideal) (Tri.G (V m c main_arg0)) := by
  rw [Cert.KernelIdeal.Value.flushed1_A, Block.out_eq]
  obtain ⟨e0, e1, e2, e3, e4⟩ := idx_facts t
  funext y
  show Block.B (iblk m c 0 t) y = Tri.G (V m c main_arg0) (((cfg0.win 1).blk t).view.emb y)
  have e5 : (((cfg0.win 1).blk t).view.emb y) 1 = y 1 :=
    Fin.ext (by show win0_1.index t (1 : Fin 2) * 528 + 1 * (y 1).val = (y 1).val; omega)
  unfold Block.B Tri.G
  refine Finset.sum_congr rfl fun d _ => ?_
  rw [e5, iblk_apply m c t (Tri.rowF (y 1)) (y 0) d y rfl, iblk_apply m c t (Tri.colF (y 1)) (y 0) d y rfl]

/-- An index of the result is in point t's block iff each coordinate is in the block's range on its axis. -/
theorem mem_blk (t : Fin cfg0.N) (i : S16384x528.Idx) :
    i ∈ ((cfg0.win 1).blk t).view.set ↔ ∀ a : Fin 2, win0_1.index t a * S512x528.size a ≤ (i a).val ∧ (i a).val < win0_1.index t a * S512x528.size a + S512x528.size a := by
  show i ∈ ((View.whole main_v0).slice (win0_1.rect t)).set ↔ _
  rw [View.set_slice_whole, Rect.mem_set_unit]
  exact Iff.rfl

/-- The 32 row bands cover the result: row r is in the block of point r / 512. -/
theorem cover (i : S16384x528.Idx) : ∃ t : Fin cfg0.N, (cfg0.win 1).flush t = true ∧ i ∈ ((cfg0.win 1).blk t).view.set := by
  have h0 : (i 0).val < 16384 := (i 0).isLt
  have h1 : (i 1).val < 528 := (i 1).isLt
  have hN : cfg0.N = 32 := N_0
  have ht : (i 0).val / 512 < cfg0.N := by rw [hN]; omega
  obtain ⟨e0, e1, e2, e3, e4⟩ := idx_facts ⟨(i 0).val / 512, ht⟩
  refine ⟨⟨(i 0).val / 512, ht⟩, flush0_1 _, ?_⟩
  rw [mem_blk]
  intro a
  match a with
  | ⟨0, _⟩ =>
    show win0_1.index ⟨(i 0).val / 512, ht⟩ (0 : Fin 2) * 512 ≤ (i 0).val ∧ (i 0).val < win0_1.index ⟨(i 0).val / 512, ht⟩ (0 : Fin 2) * 512 + 512
    rw [e3]; show (i 0).val / 512 * 512 ≤ (i 0).val ∧ (i 0).val < (i 0).val / 512 * 512 + 512; omega
  | ⟨1, _⟩ =>
    show win0_1.index ⟨(i 0).val / 512, ht⟩ (1 : Fin 2) * 528 ≤ (i 1).val ∧ (i 1).val < win0_1.index ⟨(i 0).val / 512, ht⟩ (1 : Fin 2) * 528 + 528
    rw [e4]; omega

/-- THE RESULT ARRAY after the run is Tri.G of the argument. -/
theorem final (c : Dev nD) : (dats m 0 c).arrAt 1 cfg0.N = Tri.G (m ((c : Thread nD τ).loc main_arg0)) :=
  (dats m 0 c).arrAt_eq_of_cover 1 (Tri.G (V m c main_arg0)) (fun t _ => flushed_eq m c t) cover

/-- The idealized kernel's run: the result is Tri.G of the argument, the argument unchanged. -/
theorem run : θ_run defs (onTc (τ := τ) (main (F := Ideal))) ⟨m, fun _ => 0, ρ⟩ fun r => ∀ c : Dev nD,
      r.2.mem ((c : Thread nD τ).loc main_v0) = Tri.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.KValue

end
-- ==== Proof.RefOps.lean ====
/- The reference program's @main as the LIST of its 137 host operations (the ten outlined functions' bodies inline at
   their calls, each over that call's buffer record), cut into nine windows. -/
import proofs.«121324_j53721450938755_1_alg».proof.ReferenceIdeal
import proofs.«121324_j53721450938755_1_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1–2 of @main, in order. -/
abbrev part1 : List (HloOp τ sig (Elt F)) :=
  [ unary main_arg0 main_v0 ((transpose S16384x32x64 [1, 0, 2] · transposes_S32x16384x64_S16384x32x64_1_0_2) : (⟨S32x16384x64, .f32⟩ : BufTy).Contents (Elt F) → (⟨S16384x32x64, .f32⟩ : BufTy).Contents (Elt F)),
    binary main_v0 main_v0 main_v1 ((fun l r => Host.dotGeneral dot_S16384x32x64_S16384x32x64_S16384x32x32_2_2_1_1_0_0 none l r) : (⟨S16384x32x64, .f32⟩ : BufTy).Contents (Elt F) → (⟨S16384x32x64, .f32⟩ : BufTy).Contents (Elt F) → (⟨S16384x32x32, .f32⟩ : BufTy).Contents (Elt F)) ]

/-- Operations 3–21 of @main, in order. -/
abbrev part2 : List (HloOp τ sig (Elt F)) :=
  [ nullary main_cst (constant S_ .f32 0x3F800000#32),
    unary main_cst main_v2 (broadcastInDim S32x32 ![] bcast_S_S32x32 : (⟨S_, .f32⟩ : BufTy).Contents (Elt F) → (⟨S32x32, .f32⟩ : BufTy).Contents (Elt F)),
    TRef.nullary main_call0.v0 (iotaInDim S32x32 32 0),
    TRef.nullary main_call0.c (constantI S_ 32 4294967295#32),
    TRef.unary main_call0.c main_call0.v1 (broadcastInDim S32x32 ![] bcast_S_S32x32),
    TRef.binary main_call0.v0 main_call0.v1 main_call0.v2 addi,
    TRef.nullary main_call0.v3 (iotaInDim S32x32 32 1),
    TRef.binary main_call0.v2 main_call0.v3 main_call0.v4 (cmpi .sge),
    TRef.nullary main_call0.cst (constant S_ .f32 0x00000000#32),
    TRef.unary main_call0.cst main_call0.v5 (broadcastInDim S32x32 ![] bcast_S_S32x32),
    TRef.ternary main_call0.v4 main_call0.v5 (.of main_v2 : TRef sig ⟨S32x32, .f32⟩) main_call0.v6 select,
    nullary main_cst_0 (constant S_ .f32 0x00000000#32),
    unary main_cst_0 main_v4 (broadcastInDim S32x32 ![] bcast_S_S32x32 : (⟨S_, .f32⟩ : BufTy).Contents (Elt F) → (⟨S32x32, .f32⟩ : BufTy).Contents (Elt F)),
    binary main_v3 main_v4 main_v5 (cmpf .une : (⟨S32x32, .f32⟩ : BufTy).Contents (Elt F) → (⟨S32x32, .f32⟩ : BufTy).Contents (Elt F) → (⟨S32x32, .i1⟩ : BufTy).Contents (Elt F)),
    TRef.reshape (.of main_v5 : TRef sig ⟨S32x32, .i1⟩) main_call1.v0 rfl shapeCasts_S32x32_S1024,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![1024] ![1] ![1023] ![0] x v reduceWindows_S1024_S1024_w1024s1p1023_0 h_S_) ]

/-- Operations 22–38 of @main, in order. -/
abbrev part3 : List (HloOp τ sig (Elt F)) :=
  [ nullary main_c (constantI S_ 32 0#32),
    unary main_c main_v7 (broadcastInDim S528 ![] bcast_S_S528 : (⟨S_, .i32⟩ : BufTy).Contents (Elt F) → (⟨S528, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S1024 ![] bcast_S_S1024),
    TRef.binary main_call2.v1 (.of main_v6 : TRef sig ⟨S1024, .i32⟩) main_call2.v2 maxsi,
    nullary main_c_2 (constantI S_ 32 0#32),
    unary main_c_2 main_v9 (broadcastInDim S1024 ![] bcast_S_S1024 : (⟨S_, .i32⟩ : BufTy).Contents (Elt F) → (⟨S1024, .i32⟩ : BufTy).Contents (Elt F)),
    binary main_v8 main_v9 main_v10 (cmpi .slt : (⟨S1024, .i32⟩ : BufTy).Contents (Elt F) → (⟨S1024, .i32⟩ : BufTy).Contents (Elt F) → (⟨S1024, .i1⟩ : BufTy).Contents (Elt F)),
    nullary main_c_3 (constantI S_ 32 528#32),
    unary main_c_3 main_v11 (broadcastInDim S1024 ![] bcast_S_S1024 : (⟨S_, .i32⟩ : BufTy).Contents (Elt F) → (⟨S1024, .i32⟩ : BufTy).Contents (Elt F)),
    binary main_v8 main_v11 main_v12 (addi : (⟨S1024, .i32⟩ : BufTy).Contents (Elt F) → (⟨S1024, .i32⟩ : BufTy).Contents (Elt F) → (⟨S1024, .i32⟩ : BufTy).Contents (Elt F)),
    ternary main_v10 main_v12 main_v8 main_v13 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v13 main_v14 (broadcastInDim S1024x1 ![0] bcast_S1024_S1024x1_0 : (⟨S1024, .i32⟩ : BufTy).Contents (Elt F) → (⟨S1024x1, .i32⟩ : BufTy).Contents (Elt F)),
    nullary main_c_4 (constantI S_ 32 1#32),
    unary main_c_4 main_v15 (broadcastInDim S1024 ![] bcast_S_S1024 : (⟨S_, .i32⟩ : BufTy).Contents (Elt F) → (⟨S1024, .i32⟩ : BufTy).Contents (Elt F)),
    ternary main_v7 main_v14 main_v15 main_v16 ((fun x i u => Host.scatter scatter_S528_S1024x1_S1024_n_0_0_1 IntOp.addi x i u) : (⟨S528, .i32⟩ : BufTy).Contents (Elt F) → (⟨S1024x1, .i32⟩ : BufTy).Contents (Elt F) → (⟨S1024, .i32⟩ : BufTy).Contents (Elt F) → (⟨S528, .i32⟩ : BufTy).Contents (Elt F)) ]

/-- Operations 39–58 of @main, in order. -/
abbrev part4 : List (HloOp τ sig (Elt F)) :=
  [ TRef.nullary main_call3.call0.c (constantI S_ 32 0#32),
    TRef.unary main_call3.call0.c main_call3.call0.v0 (broadcastInDim S_ ![] bcast_S_S_),
    TRef.binary (.of main_v16 : TRef sig ⟨S528, .i32⟩) main_call3.call0.v0 main_call3.call0.v1 (fun x v => Host.reduceWindow IntOp.addi ![528] ![1] ![527] ![0] x v reduceWindows_S528_S528_w528s1p527_0 h_S_),
    nullary main_c_5 (constantI S_ 32 32#32),
    TRef.unary (.of main_c_5 : TRef sig ⟨S_, .i32⟩) main_call4.v0 (broadcastInDim S528 ![] bcast_S_S528),
    TRef.binary (.of main_v17 : TRef sig ⟨S528, .i32⟩) main_call4.v0 main_call4.v1 Host.divsi,
    TRef.unary (.of main_v17 : TRef sig ⟨S528, .i32⟩) main_call4.v2 signi,
    TRef.unary (.of main_c_5 : TRef sig ⟨S_, .i32⟩) main_call4.v3 signi,
    TRef.unary main_call4.v3 main_call4.v4 (broadcastInDim S528 ![] bcast_S_S528),
    TRef.binary main_call4.v2 main_call4.v4 main_call4.v5 (cmpi .ne),
    TRef.unary (.of main_c_5 : TRef sig ⟨S_, .i32⟩) main_call4.v6 (broadcastInDim S528 ![] bcast_S_S528),
    TRef.binary (.of main_v17 : TRef sig ⟨S528, .i32⟩) main_call4.v6 main_call4.v7 Host.remsi,
    TRef.nullary main_call4.c (constantI S_ 32 0#32),
    TRef.unary main_call4.c main_call4.v8 (broadcastInDim S528 ![] bcast_S_S528),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S528 ![] bcast_S_S528),
    TRef.binary main_call4.v1 main_call4.v11 main_call4.v12 subi,
    TRef.ternary main_call4.v10 main_call4.v12 main_call4.v1 main_call4.call0.v0 select ]

/-- Operations 59–80 of @main, in order. -/
abbrev part5 : List (HloOp τ sig (Elt F)) :=
  [ nullary main_c_6 (constantI S_ 32 32#32),
    TRef.unary (.of main_c_6 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S528 ![] bcast_S_S528),
    TRef.binary (.of main_v18 : TRef sig ⟨S528, .i32⟩) main_call5.v3 main_call5.v4 Host.remsi,
    TRef.nullary main_call5.c_1 (constantI S_ 32 0#32),
    TRef.unary main_call5.c_1 main_call5.v5 (broadcastInDim S528 ![] bcast_S_S528),
    TRef.binary main_call5.v4 main_call5.v5 main_call5.v6 (cmpi .ne),
    TRef.nullary main_call5.c_2 (constantI S_ 32 0#32),
    TRef.unary main_call5.c_2 main_call5.v7 (broadcastInDim S528 ![] bcast_S_S528),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S528 ![] bcast_S_S528),
    TRef.binary main_call5.v8 main_call5.v10 main_call5.v11 (cmpi .ne),
    TRef.binary main_call5.v11 main_call5.v6 main_call5.v12 andi,
    TRef.unary main_call5.call0.v0 main_call5.v13 (broadcastInDim S528 ![] bcast_S_S528),
    TRef.binary main_call5.v4 main_call5.v13 main_call5.v14 addi,
    TRef.ternary main_call5.v12 main_call5.v14 main_call5.v4 main_call5.v15 select ]

/-- Operations 81–97 of @main, in order. -/
abbrev part6 : List (HloOp τ sig (Elt F)) :=
  [ nullary main_c_7 (constantI S_ 32 1#32),
    TRef.unary (.of main_c_7 : TRef sig ⟨S_, .i32⟩) main_call6.v0 (broadcastInDim S528 ![] bcast_S_S528),
    TRef.binary (.of main_v17 : TRef sig ⟨S528, .i32⟩) main_call6.v0 main_call6.v1 Host.divsi,
    TRef.unary (.of main_v17 : TRef sig ⟨S528, .i32⟩) main_call6.v2 signi,
    TRef.unary (.of main_c_7 : TRef sig ⟨S_, .i32⟩) main_call6.v3 signi,
    TRef.unary main_call6.v3 main_call6.v4 (broadcastInDim S528 ![] bcast_S_S528),
    TRef.binary main_call6.v2 main_call6.v4 main_call6.v5 (cmpi .ne),
    TRef.unary (.of main_c_7 : TRef sig ⟨S_, .i32⟩) main_call6.v6 (broadcastInDim S528 ![] bcast_S_S528),
    TRef.binary (.of main_v17 : TRef sig ⟨S528, .i32⟩) main_call6.v6 main_call6.v7 Host.remsi,
    TRef.nullary main_call6.c (constantI S_ 32 0#32),
    TRef.unary main_call6.c main_call6.v8 (broadcastInDim S528 ![] bcast_S_S528),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S528 ![] bcast_S_S528),
    TRef.binary main_call6.v1 main_call6.v11 main_call6.v12 subi,
    TRef.ternary main_call6.v10 main_call6.v12 main_call6.v1 main_call6.call0.v0 select ]

/-- Operations 98–119 of @main, in order. -/
abbrev part7 : List (HloOp τ sig (Elt F)) :=
  [ nullary main_c_8 (constantI S_ 32 32#32),
    TRef.unary (.of main_c_8 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S528 ![] bcast_S_S528),
    TRef.binary (.of main_v20 : TRef sig ⟨S528, .i32⟩) main_call7.v3 main_call7.v4 Host.remsi,
    TRef.nullary main_call7.c_1 (constantI S_ 32 0#32),
    TRef.unary main_call7.c_1 main_call7.v5 (broadcastInDim S528 ![] bcast_S_S528),
    TRef.binary main_call7.v4 main_call7.v5 main_call7.v6 (cmpi .ne),
    TRef.nullary main_call7.c_2 (constantI S_ 32 0#32),
    TRef.unary main_call7.c_2 main_call7.v7 (broadcastInDim S528 ![] bcast_S_S528),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S528 ![] bcast_S_S528),
    TRef.binary main_call7.v8 main_call7.v10 main_call7.v11 (cmpi .ne),
    TRef.binary main_call7.v11 main_call7.v6 main_call7.v12 andi,
    TRef.unary main_call7.call0.v0 main_call7.v13 (broadcastInDim S528 ![] bcast_S_S528),
    TRef.binary main_call7.v4 main_call7.v13 main_call7.v14 addi,
    TRef.ternary main_call7.v12 main_call7.v14 main_call7.v4 main_call7.v15 select ]

/-- Operations 120–135 of @main, in order. -/
abbrev part8 : List (HloOp τ sig (Elt F)) :=
  [ nullary main_c_9 (constantI S_ 32 0#32),
    unary main_c_9 main_v22 (broadcastInDim S528 ![] bcast_S_S528 : (⟨S_, .i32⟩ : BufTy).Contents (Elt F) → (⟨S528, .i32⟩ : BufTy).Contents (Elt F)),
    binary main_v19 main_v22 main_v23 (cmpi .slt : (⟨S528, .i32⟩ : BufTy).Contents (Elt F) → (⟨S528, .i32⟩ : BufTy).Contents (Elt F) → (⟨S528, .i1⟩ : BufTy).Contents (Elt F)),
    nullary main_c_10 (constantI S_ 32 32#32),
    unary main_c_10 main_v24 (broadcastInDim S528 ![] bcast_S_S528 : (⟨S_, .i32⟩ : BufTy).Contents (Elt F) → (⟨S528, .i32⟩ : BufTy).Contents (Elt F)),
    binary main_v19 main_v24 main_v25 (addi : (⟨S528, .i32⟩ : BufTy).Contents (Elt F) → (⟨S528, .i32⟩ : BufTy).Contents (Elt F) → (⟨S528, .i32⟩ : BufTy).Contents (Elt F)),
    ternary main_v23 main_v25 main_v19 main_v26 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    nullary main_c_11 (constantI S_ 32 0#32),
    unary main_c_11 main_v27 (broadcastInDim S528 ![] bcast_S_S528 : (⟨S_, .i32⟩ : BufTy).Contents (Elt F) → (⟨S528, .i32⟩ : BufTy).Contents (Elt F)),
    binary main_v21 main_v27 main_v28 (cmpi .slt : (⟨S528, .i32⟩ : BufTy).Contents (Elt F) → (⟨S528, .i32⟩ : BufTy).Contents (Elt F) → (⟨S528, .i1⟩ : BufTy).Contents (Elt F)),
    nullary main_c_12 (constantI S_ 32 32#32),
    unary main_c_12 main_v29 (broadcastInDim S528 ![] bcast_S_S528 : (⟨S_, .i32⟩ : BufTy).Contents (Elt F) → (⟨S528, .i32⟩ : BufTy).Contents (Elt F)),
    binary main_v21 main_v29 main_v30 (addi : (⟨S528, .i32⟩ : BufTy).Contents (Elt F) → (⟨S528, .i32⟩ : BufTy).Contents (Elt F) → (⟨S528, .i32⟩ : BufTy).Contents (Elt F)),
    ternary main_v28 main_v30 main_v21 main_v31 (select : (⟨S528, .i1⟩ : BufTy).Contents (Elt F) → (⟨S528, .i32⟩ : BufTy).Contents (Elt F) → (⟨S528, .i32⟩ : BufTy).Contents (Elt F) → (⟨S528, .i32⟩ : BufTy).Contents (Elt F)),
    unary main_v26 main_v32 (broadcastInDim S528x1 ![0] bcast_S528_S528x1_0 : (⟨S528, .i32⟩ : BufTy).Contents (Elt F) → (⟨S528x1, .i32⟩ : BufTy).Contents (Elt F)),
    unary main_v31 main_v33 (broadcastInDim S528x1 ![0] bcast_S528_S528x1_0 : (⟨S528, .i32⟩ : BufTy).Contents (Elt F) → (⟨S528x1, .i32⟩ : BufTy).Contents (Elt F)) ]

/-- Operations 136–137 of @main, in order. -/
abbrev part9 : List (HloOp τ sig (Elt F)) :=
  [ binary main_v32 main_v33 main_v34 ((fun a b => concatenate S528x2 1 [⟨S528x1, a⟩, ⟨S528x1, b⟩] concatenates_S528x1_S528x1_S528x2_d1) : (⟨S528x1, .i32⟩ : BufTy).Contents (Elt F) → (⟨S528x1, .i32⟩ : BufTy).Contents (Elt F) → (⟨S528x2, .i32⟩ : BufTy).Contents (Elt F)),
    binary main_v1 main_v34 main_v35 ((fun x i => Host.gather gather_S16384x32x32_S528x2_S16384x528_0_12_n_n_12_1_1638411 x i) : (⟨S16384x32x32, .f32⟩ : BufTy).Contents (Elt F) → (⟨S528x2, .i32⟩ : BufTy).Contents (Elt F) → (⟨S16384x528, .f32⟩ : BufTy).Contents (Elt F)) ]

/-- @main's 137 operations, in order: the nine windows joined. -/
abbrev ops : List (HloOp τ sig (Elt F)) :=
  part1 ++ (part2 ++ (part3 ++ (part4 ++ (part5 ++ (part6 ++ (part7 ++ (part8 ++ (part9))))))))

/-- @main is that straight line: the outlined functions' definitions unfolded at their calls and the windows at
    their lists, both sides are one chain of `hlo` steps once sequencing is reassociated. -/
theorem main_eq (c : Dev nD) : main (F := F) c = seq ops := by
  simp only [main, fn_triu.body, fn_cumsum.body, fn_cumsum_0.body, fn_clip.body, fn_cumsum_1.body, fn_cumsum_2.body,
    fn_floor_divide.body, fn_where.body, fn_remainder.body, fn_where_3.body, ops, part1, part2, part3, part4, part5, part6, part7, part8, part9,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem part1_sub : (part1 : List (HloOp τ sig (Elt F))).Forall fun op => op.bufs ⊆ tcRefs τ sig :=
  ⟨unary_bufs_sub .., binary_bufs_sub ..⟩
theorem part2_sub : (part2 : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub ..⟩
theorem part3_sub : (part3 : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩
theorem part4_sub : (part4 : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem part5_sub : (part5 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem part6_sub : (part6 : List (HloOp τ sig (Elt F))).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩
theorem part7_sub : (part7 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩
theorem part8_sub : (part8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩
theorem part9_sub : (part9 : List (HloOp τ sig (Elt F))).Forall fun op => op.bufs ⊆ tcRefs τ sig :=
  ⟨binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h
    exacts [List.forall_iff_forall_mem.mp part1_sub op h, List.forall_iff_forall_mem.mp part2_sub op h, List.forall_iff_forall_mem.mp part3_sub op h, List.forall_iff_forall_mem.mp part4_sub op h, List.forall_iff_forall_mem.mp part5_sub op h, List.forall_iff_forall_mem.mp part6_sub op h, List.forall_iff_forall_mem.mp part7_sub op h, List.forall_iff_forall_mem.mp part8_sub op h, List.forall_iff_forall_mem.mp part9_sub op h]

end Cert.ReferenceIdeal.RefRun

end
-- ==== Proof.RefRun.lean ====
/- The reference program's run. The contents after each of the nine windows of @main's operation list, read back:
   the integer operations compute a closed index table, the two float operations the batched product of the transposed
   argument with itself, and the last operation gathers the product at the table. -/
import proofs.«121324_j53721450938755_1_alg».proof.Proof.RefOps
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The values the operations compute

The integer operations read no argument: each value below is a closed term (the float pieces, the comparison of the
upper triangle of ones against zero, at the float values `F`). A value read more than once, or still read after the
window that writes it, has a name. -/

/-- The value of `main_v6`. -/
def res_main_v6 (F : FTy → Type) [FloatOps F] : IVec S1024 32 :=
  Host.reduceWindow IntOp.addi ![1024] ![1] ![1023] ![0] (extui 32 (shapeCast S1024 (cmpf .une (select (cmpi .sge (addi (iotaInDim S32x32 32 0) (broadcastInDim S32x32 ![] bcast_S_S32x32 (constantI S_ 32 4294967295#32))) (iotaInDim S32x32 32 1)) (broadcastInDim S32x32 ![] bcast_S_S32x32 ((constant S_ .f32 0x00000000#32 : FVec F S_ .f32))) (broadcastInDim S32x32 ![] bcast_S_S32x32 ((constant S_ .f32 0x3F800000#32 : FVec F S_ .f32)))) (broadcastInDim S32x32 ![] bcast_S_S32x32 ((constant S_ .f32 0x00000000#32 : FVec F S_ .f32)))) shapeCasts_S32x32_S1024) natLt_1_32) (broadcastInDim S_ ![] bcast_S_S_ (constantI S_ 32 0#32)) reduceWindows_S1024_S1024_w1024s1p1023_0 h_S_

/-- The value of `main_v8`. -/
def res_main_v8 (F : FTy → Type) [FloatOps F] : IVec S1024 32 :=
  maxsi (broadcastInDim S1024 ![] bcast_S_S1024 ((constantI S_ 32 0#32))) (res_main_v6 F)

/-- The value of `main_v16`. -/
def res_main_v16 (F : FTy → Type) [FloatOps F] : IVec S528 32 :=
  Host.scatter scatter_S528_S1024x1_S1024_n_0_0_1 IntOp.addi (broadcastInDim S528 ![] bcast_S_S528 (constantI S_ 32 0#32)) (broadcastInDim S1024x1 ![0] bcast_S1024_S1024x1_0 (select (cmpi .slt (res_main_v8 F) (broadcastInDim S1024 ![] bcast_S_S1024 (constantI S_ 32 0#32))) (addi (res_main_v8 F) (broadcastInDim S1024 ![] bcast_S_S1024 (constantI S_ 32 528#32))) (res_main_v8 F))) (broadcastInDim S1024 ![] bcast_S_S1024 (constantI S_ 32 1#32))

/-- The value of `main_v17`. -/
def res_main_v17 (F : FTy → Type) [FloatOps F] : IVec S528 32 :=
  Host.reduceWindow IntOp.addi ![528] ![1] ![527] ![0] (res_main_v16 F) (broadcastInDim S_ ![] bcast_S_S_ (constantI S_ 32 0#32)) reduceWindows_S528_S528_w528s1p527_0 h_S_

/-- The value of `main_call4_v1`. -/
def res_main_call4_v1 (F : FTy → Type) [FloatOps F] : IVec S528 32 :=
  Host.divsi (res_main_v17 F) (broadcastInDim S528 ![] bcast_S_S528 (constantI S_ 32 32#32))

/-- The value of `main_v18`. -/
def res_main_v18 (F : FTy → Type) [FloatOps F] : IVec S528 32 :=
  select (andi (cmpi .ne (signi (res_main_v17 F)) (broadcastInDim S528 ![] bcast_S_S528 (signi (constantI S_ 32 32#32)))) (cmpi .ne (Host.remsi (res_main_v17 F) (broadcastInDim S528 ![] bcast_S_S528 (constantI S_ 32 32#32))) (broadcastInDim S528 ![] bcast_S_S528 (constantI S_ 32 0#32)))) (subi (res_main_call4_v1 F) (broadcastInDim S528 ![] bcast_S_S528 (constantI S_ 32 1#32))) (res_main_call4_v1 F)

/-- The value of `main_call5_v2`. -/
def res_main_call5_v2 (F : FTy → Type) [FloatOps F] : IVec S_ 32 :=
  select (cmpi .eq ((constantI S_ 32 32#32)) (constantI S_ 32 0#32)) (constantI S_ 32 1#32) ((constantI S_ 32 32#32))

/-- The value of `main_call5_v4`. -/
def res_main_call5_v4 (F : FTy → Type) [FloatOps F] : IVec S528 32 :=
  Host.remsi (res_main_v18 F) (broadcastInDim S528 ![] bcast_S_S528 (res_main_call5_v2 F))

/-- The value of `main_v19`. -/
def res_main_v19 (F : FTy → Type) [FloatOps F] : IVec S528 32 :=
  select (andi (cmpi .ne (cmpi .slt (res_main_call5_v4 F) (broadcastInDim S528 ![] bcast_S_S528 (constantI S_ 32 0#32))) (broadcastInDim S528 ![] bcast_S_S528 (cmpi .slt (res_main_call5_v2 F) (constantI S_ 32 0#32)))) (cmpi .ne (res_main_call5_v4 F) (broadcastInDim S528 ![] bcast_S_S528 (constantI S_ 32 0#32)))) (addi (res_main_call5_v4 F) (broadcastInDim S528 ![] bcast_S_S528 (res_main_call5_v2 F))) (res_main_call5_v4 F)

/-- The value of `main_call6_v1`. -/
def res_main_call6_v1 (F : FTy → Type) [FloatOps F] : IVec S528 32 :=
  Host.divsi (res_main_v17 F) (broadcastInDim S528 ![] bcast_S_S528 (constantI S_ 32 1#32))

/-- The value of `main_v20`. -/
def res_main_v20 (F : FTy → Type) [FloatOps F] : IVec S528 32 :=
  select (andi (cmpi .ne (signi (res_main_v17 F)) (broadcastInDim S528 ![] bcast_S_S528 (signi (constantI S_ 32 1#32)))) (cmpi .ne (Host.remsi (res_main_v17 F) (broadcastInDim S528 ![] bcast_S_S528 (constantI S_ 32 1#32))) (broadcastInDim S528 ![] bcast_S_S528 (constantI S_ 32 0#32)))) (subi (res_main_call6_v1 F) (broadcastInDim S528 ![] bcast_S_S528 (constantI S_ 32 1#32))) (res_main_call6_v1 F)

/-- The value of `main_call7_v2`. -/
def res_main_call7_v2 (F : FTy → Type) [FloatOps F] : IVec S_ 32 :=
  select (cmpi .eq ((constantI S_ 32 32#32)) (constantI S_ 32 0#32)) (constantI S_ 32 1#32) ((constantI S_ 32 32#32))

/-- The value of `main_call7_v4`. -/
def res_main_call7_v4 (F : FTy → Type) [FloatOps F] : IVec S528 32 :=
  Host.remsi (res_main_v20 F) (broadcastInDim S528 ![] bcast_S_S528 (res_main_call7_v2 F))

/-- The value of `main_v21`. -/
def res_main_v21 (F : FTy → Type) [FloatOps F] : IVec S528 32 :=
  select (andi (cmpi .ne (cmpi .slt (res_main_call7_v4 F) (broadcastInDim S528 ![] bcast_S_S528 (constantI S_ 32 0#32))) (broadcastInDim S528 ![] bcast_S_S528 (cmpi .slt (res_main_call7_v2 F) (constantI S_ 32 0#32)))) (cmpi .ne (res_main_call7_v4 F) (broadcastInDim S528 ![] bcast_S_S528 (constantI S_ 32 0#32)))) (addi (res_main_call7_v4 F) (broadcastInDim S528 ![] bcast_S_S528 (res_main_call7_v2 F))) (res_main_call7_v4 F)

/-- The value of `main_v34`. -/
def res_main_v34 (F : FTy → Type) [FloatOps F] : IVec S528x2 32 :=
  concatenate S528x2 1 [⟨S528x1, (broadcastInDim S528x1 ![0] bcast_S528_S528x1_0 (select (cmpi .slt (res_main_v19 F) (broadcastInDim S528 ![] bcast_S_S528 (constantI S_ 32 0#32))) (addi (res_main_v19 F) (broadcastInDim S528 ![] bcast_S_S528 (constantI S_ 32 32#32))) (res_main_v19 F)))⟩, ⟨S528x1, (broadcastInDim S528x1 ![0] bcast_S528_S528x1_0 (select (cmpi .slt (res_main_v21 F) (broadcastInDim S528 ![] bcast_S_S528 (constantI S_ 32 0#32))) (addi (res_main_v21 F) (broadcastInDim S528 ![] bcast_S_S528 (constantI S_ 32 32#32))) (res_main_v21 F)))⟩] concatenates_S528x1_S528x1_S528x2_d1

/-! ## The contents window by window -/

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl

/-- The device's buffer contents after @main's first 1 window. -/
def val1 (V0 : Valuation τ sig (Elt F)) : Valuation τ sig (Elt F) := after part1 (val0 V0)
/-- The buffers that window 1's operations write. -/
abbrev part1_W : List (Ref sig .tc) := [main_v0, main_v1]
theorem part1_writes : (part1 : List (HloOp τ sig (Elt F))).Forall fun op => op.writes ⊆ (part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 1 does not write keeps its contents through it. -/
theorem val1_keep (V0 : Valuation τ sig (Elt F)) (r : Ref sig .tc) (h : r ∉ part1_W) :
    val1 V0 (Proc.devRef .tc r) = val0 V0 (Proc.devRef .tc r) :=
  after_of_writes_sub part1 _ part1_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_v1 (V0 : Valuation τ sig (Elt F)) : val1 V0 (no_index (Proc.devRef .tc main_v1)) = Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2) := by
  unfold val1
  simp only [part1]
  after_results_simp
  simp only [val0_main_arg0] <;> rfl

/-- The device's buffer contents after @main's first 2 windows. -/
def val2 (V0 : Valuation τ sig (Elt F)) : Valuation τ sig (Elt F) := after part2 (val1 V0)
/-- The buffers that window 2's operations write. -/
abbrev part2_W : List (Ref sig .tc) := [main_cst, main_v2, main_call0_v0, main_call0_c, main_call0_v1, main_call0_v2, main_call0_v3, main_call0_v4, main_call0_cst, main_call0_v5, main_v3, main_cst_0, main_v4, main_v5, main_call1_v0, main_call1_v1, main_call1_call0_c, main_call1_call0_v0, main_v6]
theorem part2_writes : (part2 : List (HloOp τ sig (Elt F))).Forall fun op => op.writes ⊆ (part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 2 does not write keeps its contents through it. -/
theorem val2_keep (V0 : Valuation τ sig (Elt F)) (r : Ref sig .tc) (h : r ∉ part2_W) :
    val2 V0 (Proc.devRef .tc r) = val1 V0 (Proc.devRef .tc r) :=
  after_of_writes_sub part2 _ part2_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_v1 (V0 : Valuation τ sig (Elt F)) : val2 V0 (no_index (Proc.devRef .tc main_v1)) = Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2) :=
  (val2_keep V0 main_v1 (by decide)).trans (val1_main_v1 V0)
attribute [local irreducible] Host.reduceWindow Host.scatter Host.gather Host.divsi Host.remsi in
set_option maxHeartbeats 2000000 in
theorem val2_main_v6 (V0 : Valuation τ sig (Elt F)) : val2 V0 (no_index (Proc.devRef .tc main_v6)) = res_main_v6 F := by
  unfold val2
  simp only [part2]
  after_results_simp
  simp only [TRef.toBuf, TRef.ofBuf]
  repeat rw [cast_eq]
  unfold res_main_v6
  rfl

/-- The device's buffer contents after @main's first 3 windows. -/
def val3 (V0 : Valuation τ sig (Elt F)) : Valuation τ sig (Elt F) := after part3 (val2 V0)
/-- The buffers that window 3's operations write. -/
abbrev part3_W : List (Ref sig .tc) := [main_c, main_v7, main_c_1, main_call2_v0, main_call2_v1, main_v8, main_c_2, main_v9, main_v10, main_c_3, main_v11, main_v12, main_v13, main_v14, main_c_4, main_v15, main_v16]
theorem part3_writes : (part3 : List (HloOp τ sig (Elt F))).Forall fun op => op.writes ⊆ (part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 3 does not write keeps its contents through it. -/
theorem val3_keep (V0 : Valuation τ sig (Elt F)) (r : Ref sig .tc) (h : r ∉ part3_W) :
    val3 V0 (Proc.devRef .tc r) = val2 V0 (Proc.devRef .tc r) :=
  after_of_writes_sub part3 _ part3_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_v1 (V0 : Valuation τ sig (Elt F)) : val3 V0 (no_index (Proc.devRef .tc main_v1)) = Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2) :=
  (val3_keep V0 main_v1 (by decide)).trans (val2_main_v1 V0)
attribute [local irreducible] Host.reduceWindow Host.scatter Host.gather Host.divsi Host.remsi in
set_option maxHeartbeats 2000000 in
theorem val3_main_v16 (V0 : Valuation τ sig (Elt F)) : val3 V0 (no_index (Proc.devRef .tc main_v16)) = res_main_v16 F := by
  unfold val3
  simp only [part3]
  after_results_simp
  simp only [val2_main_v6]
  simp only [TRef.toBuf, TRef.ofBuf]
  repeat rw [cast_eq]
  unfold res_main_v16 res_main_v8
  rfl

/-- The device's buffer contents after @main's first 4 windows. -/
def val4 (V0 : Valuation τ sig (Elt F)) : Valuation τ sig (Elt F) := after part4 (val3 V0)
/-- The buffers that window 4's operations write. -/
abbrev part4_W : List (Ref sig .tc) := [main_call3_call0_c, main_call3_call0_v0, main_v17, main_c_5, main_call4_v0, main_call4_v1, main_call4_v2, main_call4_v3, main_call4_v4, main_call4_v5, main_call4_v6, main_call4_v7, main_call4_c, main_call4_v8, main_call4_v9, main_call4_v10, main_call4_c_0, main_call4_v11, main_call4_v12, main_v18]
theorem part4_writes : (part4 : List (HloOp τ sig (Elt F))).Forall fun op => op.writes ⊆ (part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 4 does not write keeps its contents through it. -/
theorem val4_keep (V0 : Valuation τ sig (Elt F)) (r : Ref sig .tc) (h : r ∉ part4_W) :
    val4 V0 (Proc.devRef .tc r) = val3 V0 (Proc.devRef .tc r) :=
  after_of_writes_sub part4 _ part4_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_v1 (V0 : Valuation τ sig (Elt F)) : val4 V0 (no_index (Proc.devRef .tc main_v1)) = Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2) :=
  (val4_keep V0 main_v1 (by decide)).trans (val3_main_v1 V0)
attribute [local irreducible] Host.reduceWindow Host.scatter Host.gather Host.divsi Host.remsi in
set_option maxHeartbeats 2000000 in
theorem val4_main_v17 (V0 : Valuation τ sig (Elt F)) : val4 V0 (no_index (Proc.devRef .tc main_v17)) = res_main_v17 F := by
  unfold val4
  simp only [part4]
  after_results_simp
  simp only [val3_main_v16]
  simp only [TRef.toBuf, TRef.ofBuf]
  repeat rw [cast_eq]
  unfold res_main_v17
  rfl
attribute [local irreducible] Host.reduceWindow Host.scatter Host.gather Host.divsi Host.remsi in
set_option maxHeartbeats 2000000 in
theorem val4_main_v18 (V0 : Valuation τ sig (Elt F)) : val4 V0 (no_index (Proc.devRef .tc main_v18)) = res_main_v18 F := by
  unfold val4
  simp only [part4]
  after_results_simp
  simp only [val3_main_v16]
  simp only [TRef.toBuf, TRef.ofBuf]
  repeat rw [cast_eq]
  unfold res_main_v18 res_main_call4_v1 res_main_v17
  rfl

/-- The device's buffer contents after @main's first 5 windows. -/
def val5 (V0 : Valuation τ sig (Elt F)) : Valuation τ sig (Elt F) := after part5 (val4 V0)
/-- The buffers that window 5's operations write. -/
abbrev part5_W : List (Ref sig .tc) := [main_c_6, main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v19]
theorem part5_writes : (part5 : List (HloOp τ sig (Elt F))).Forall fun op => op.writes ⊆ (part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 5 does not write keeps its contents through it. -/
theorem val5_keep (V0 : Valuation τ sig (Elt F)) (r : Ref sig .tc) (h : r ∉ part5_W) :
    val5 V0 (Proc.devRef .tc r) = val4 V0 (Proc.devRef .tc r) :=
  after_of_writes_sub part5 _ part5_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_v1 (V0 : Valuation τ sig (Elt F)) : val5 V0 (no_index (Proc.devRef .tc main_v1)) = Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2) :=
  (val5_keep V0 main_v1 (by decide)).trans (val4_main_v1 V0)
theorem val5_main_v17 (V0 : Valuation τ sig (Elt F)) : val5 V0 (no_index (Proc.devRef .tc main_v17)) = res_main_v17 F :=
  (val5_keep V0 main_v17 (by decide)).trans (val4_main_v17 V0)
attribute [local irreducible] Host.reduceWindow Host.scatter Host.gather Host.divsi Host.remsi in
set_option maxHeartbeats 2000000 in
theorem val5_main_v19 (V0 : Valuation τ sig (Elt F)) : val5 V0 (no_index (Proc.devRef .tc main_v19)) = res_main_v19 F := by
  unfold val5
  simp only [part5]
  after_results_simp
  simp only [val4_main_v18]
  simp only [TRef.toBuf, TRef.ofBuf]
  repeat rw [cast_eq]
  unfold res_main_v19 res_main_call5_v4 res_main_call5_v2
  rfl

/-- The device's buffer contents after @main's first 6 windows. -/
def val6 (V0 : Valuation τ sig (Elt F)) : Valuation τ sig (Elt F) := after part6 (val5 V0)
/-- The buffers that window 6's operations write. -/
abbrev part6_W : List (Ref sig .tc) := [main_c_7, main_call6_v0, main_call6_v1, main_call6_v2, main_call6_v3, main_call6_v4, main_call6_v5, main_call6_v6, main_call6_v7, main_call6_c, main_call6_v8, main_call6_v9, main_call6_v10, main_call6_c_0, main_call6_v11, main_call6_v12, main_v20]
theorem part6_writes : (part6 : List (HloOp τ sig (Elt F))).Forall fun op => op.writes ⊆ (part6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 6 does not write keeps its contents through it. -/
theorem val6_keep (V0 : Valuation τ sig (Elt F)) (r : Ref sig .tc) (h : r ∉ part6_W) :
    val6 V0 (Proc.devRef .tc r) = val5 V0 (Proc.devRef .tc r) :=
  after_of_writes_sub part6 _ part6_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_v1 (V0 : Valuation τ sig (Elt F)) : val6 V0 (no_index (Proc.devRef .tc main_v1)) = Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2) :=
  (val6_keep V0 main_v1 (by decide)).trans (val5_main_v1 V0)
theorem val6_main_v19 (V0 : Valuation τ sig (Elt F)) : val6 V0 (no_index (Proc.devRef .tc main_v19)) = res_main_v19 F :=
  (val6_keep V0 main_v19 (by decide)).trans (val5_main_v19 V0)
attribute [local irreducible] Host.reduceWindow Host.scatter Host.gather Host.divsi Host.remsi in
set_option maxHeartbeats 2000000 in
theorem val6_main_v20 (V0 : Valuation τ sig (Elt F)) : val6 V0 (no_index (Proc.devRef .tc main_v20)) = res_main_v20 F := by
  unfold val6
  simp only [part6]
  after_results_simp
  simp only [val5_main_v17]
  simp only [TRef.toBuf, TRef.ofBuf]
  repeat rw [cast_eq]
  unfold res_main_v20 res_main_call6_v1
  rfl

/-- The device's buffer contents after @main's first 7 windows. -/
def val7 (V0 : Valuation τ sig (Elt F)) : Valuation τ sig (Elt F) := after part7 (val6 V0)
/-- The buffers that window 7's operations write. -/
abbrev part7_W : List (Ref sig .tc) := [main_c_8, main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v21]
theorem part7_writes : (part7 : List (HloOp τ sig (Elt F))).Forall fun op => op.writes ⊆ (part7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 7 does not write keeps its contents through it. -/
theorem val7_keep (V0 : Valuation τ sig (Elt F)) (r : Ref sig .tc) (h : r ∉ part7_W) :
    val7 V0 (Proc.devRef .tc r) = val6 V0 (Proc.devRef .tc r) :=
  after_of_writes_sub part7 _ part7_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_v1 (V0 : Valuation τ sig (Elt F)) : val7 V0 (no_index (Proc.devRef .tc main_v1)) = Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2) :=
  (val7_keep V0 main_v1 (by decide)).trans (val6_main_v1 V0)
theorem val7_main_v19 (V0 : Valuation τ sig (Elt F)) : val7 V0 (no_index (Proc.devRef .tc main_v19)) = res_main_v19 F :=
  (val7_keep V0 main_v19 (by decide)).trans (val6_main_v19 V0)
attribute [local irreducible] Host.reduceWindow Host.scatter Host.gather Host.divsi Host.remsi in
set_option maxHeartbeats 2000000 in
theorem val7_main_v21 (V0 : Valuation τ sig (Elt F)) : val7 V0 (no_index (Proc.devRef .tc main_v21)) = res_main_v21 F := by
  unfold val7
  simp only [part7]
  after_results_simp
  simp only [val6_main_v20]
  simp only [TRef.toBuf, TRef.ofBuf]
  repeat rw [cast_eq]
  unfold res_main_v21 res_main_call7_v4 res_main_call7_v2
  rfl

/-- The device's buffer contents after @main's first 8 windows. -/
def val8 (V0 : Valuation τ sig (Elt F)) : Valuation τ sig (Elt F) := after part8 (val7 V0)
/-- The buffers that window 8's operations write. -/
abbrev part8_W : List (Ref sig .tc) := [main_c_9, main_v22, main_v23, main_c_10, main_v24, main_v25, main_v26, main_c_11, main_v27, main_v28, main_c_12, main_v29, main_v30, main_v31, main_v32, main_v33]
theorem part8_writes : (part8 : List (HloOp τ sig (Elt F))).Forall fun op => op.writes ⊆ (part8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 8 does not write keeps its contents through it. -/
theorem val8_keep (V0 : Valuation τ sig (Elt F)) (r : Ref sig .tc) (h : r ∉ part8_W) :
    val8 V0 (Proc.devRef .tc r) = val7 V0 (Proc.devRef .tc r) :=
  after_of_writes_sub part8 _ part8_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_v1 (V0 : Valuation τ sig (Elt F)) : val8 V0 (no_index (Proc.devRef .tc main_v1)) = Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2) :=
  (val8_keep V0 main_v1 (by decide)).trans (val7_main_v1 V0)
attribute [local irreducible] Host.reduceWindow Host.scatter Host.gather Host.divsi Host.remsi in
set_option maxHeartbeats 2000000 in
theorem val8_main_v32 (V0 : Valuation τ sig (Elt F)) : val8 V0 (no_index (Proc.devRef .tc main_v32)) = broadcastInDim S528x1 ![0] bcast_S528_S528x1_0 (select (cmpi .slt (res_main_v19 F) (broadcastInDim S528 ![] bcast_S_S528 (constantI S_ 32 0#32))) (addi (res_main_v19 F) (broadcastInDim S528 ![] bcast_S_S528 (constantI S_ 32 32#32))) (res_main_v19 F)) := by
  unfold val8
  simp only [part8]
  after_results_simp
  simp only [val7_main_v19] <;> rfl
attribute [local irreducible] Host.reduceWindow Host.scatter Host.gather Host.divsi Host.remsi in
set_option maxHeartbeats 2000000 in
theorem val8_main_v33 (V0 : Valuation τ sig (Elt F)) : val8 V0 (no_index (Proc.devRef .tc main_v33)) = broadcastInDim S528x1 ![0] bcast_S528_S528x1_0 (select (cmpi .slt (res_main_v21 F) (broadcastInDim S528 ![] bcast_S_S528 (constantI S_ 32 0#32))) (addi (res_main_v21 F) (broadcastInDim S528 ![] bcast_S_S528 (constantI S_ 32 32#32))) (res_main_v21 F)) := by
  unfold val8
  simp only [part8]
  after_results_simp
  simp only [val7_main_v21] <;> rfl

/-- The device's buffer contents after @main's first 9 windows. -/
def val9 (V0 : Valuation τ sig (Elt F)) : Valuation τ sig (Elt F) := after part9 (val8 V0)
/-- The buffers that window 9's operations write. -/
abbrev part9_W : List (Ref sig .tc) := [main_v34, main_v35]
theorem part9_writes : (part9 : List (HloOp τ sig (Elt F))).Forall fun op => op.writes ⊆ (part9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window 9 does not write keeps its contents through it. -/
theorem val9_keep (V0 : Valuation τ sig (Elt F)) (r : Ref sig .tc) (h : r ∉ part9_W) :
    val9 V0 (Proc.devRef .tc r) = val8 V0 (Proc.devRef .tc r) :=
  after_of_writes_sub part9 _ part9_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
attribute [local irreducible] Host.reduceWindow Host.scatter Host.gather Host.divsi Host.remsi in
set_option maxHeartbeats 2000000 in
theorem val9_main_v35 (V0 : Valuation τ sig (Elt F)) : val9 V0 (no_index (Proc.devRef .tc main_v35)) = Host.gather gather_S16384x32x32_S528x2_S16384x528_0_12_n_n_12_1_1638411 (Host.dotGeneral dot_S16384x32x64_S16384x32x64_S16384x32x32_2_2_1_1_0_0 none (transpose S16384x32x64 [1, 0, 2] (V0 (Proc.devRef .tc main_arg0)) transposes_S32x16384x64_S16384x32x64_1_0_2) (transpose S16384x32x64 [1, 0, 2] (V0 (Proc.devRef .tc main_arg0)) transposes_S32x16384x64_S16384x32x64_1_0_2)) (res_main_v34 F) := by
  unfold val9
  simp only [part9]
  after_results_simp
  try simp only [val8_main_v33, val8_main_v32, val8_main_v1]
  try rw [val8_main_v33 V0]
  try rw [val8_main_v32 V0]
  try rw [val8_main_v1 V0]
  unfold res_main_v34
  rfl

theorem after_ops (V0 : Valuation τ sig (Elt F)) : after ops V0 = val9 V0 := by
  simp only [ops, after_append]
  rfl

/-! ## The run at the ideal values -/

/-- the index table the integer operations leave in %34: a closed term, no input -/
def tableTerm : IVec S528x2 32 := res_main_v34 Ideal

/-- the program's result as one function of its argument -/
def result (x : FVec Ideal S32x16384x64 .f32) : FVec Ideal S16384x528 .f32 :=
  Host.gather gather_S16384x32x32_S528x2_S16384x528_0_12_n_n_12_1_1638411
    (Host.dotGeneral dot_S16384x32x64_S16384x32x64_S16384x32x32_2_2_1_1_0_0 none
      (transpose S16384x32x64 [1, 0, 2] x transposes_S32x16384x64_S16384x32x64_1_0_2)
      (transpose S16384x32x64 [1, 0, 2] x transposes_S32x16384x64_S16384x32x64_1_0_2)) tableTerm

/-- On every device, at the ideal values, from any memory with zero counters: every weakly fair execution of @main
    terminates with the result buffer at `result` of the argument's launch contents and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35) = result (m ((c.tc : Thread nD τ).loc main_arg0))
      ∧ r.2.mem ((c.tc : Thread nD τ).loc main_arg0) = m ((c.tc : Thread nD τ).loc main_arg0)) :=
  (θ_run defs _ _).mono (fun _ h c => ⟨(h c main_v35).trans (by simp only [after_ops]; exact val9_main_v35 (launchContents m c)),
      (h c main_arg0).trans (by simp only [after_ops]; exact val9_main_arg0 (launchContents m c))⟩)
    (run_seq scopedRefs_eq scopedSems_eq defs main (fun _ => ops) main_eq (fun _ => ops_sub) m ρ)

end Cert.ReferenceIdeal.RefRun

end
-- ==== Proof.RefValue.lean ====
/- The reference's float part read at an index. The gather reads the batched product array at
   (b, row n, col n): its start indices, read signed, are the row and the column of the n-th upper-triangular entry,
   both below 32, so clamping them into range changes nothing. The batched product at (b, c, e) is the sum over d of
   l(b, c, d) · r(b, e, d), and the transposed argument at (b, c, d) is the argument at (c, b, d). Together: the
   result at (b, n) is the inner product of the feature vectors row n and col n of batch element b. -/
import proofs.«121324_j53721450938755_1_alg».proof.ReferenceIdeal
import proofs.«121324_j53721450938755_1_alg».proof.Proof.Gen.ReferenceIdeal
import proofs.«121324_j53721450938755_1_alg».proof.Proof.TriSpec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-- The transposed argument at (b, c, d) is the argument at (c, b, d). -/
theorem transpose_at {α : Type} (x : S32x16384x64.Idx → α) (b : Fin 16384) (c : Fin 32) (d : Fin 64) :
    transpose S16384x32x64 [1, 0, 2] x transposes_S32x16384x64_S16384x32x64_1_0_2 (ix3 b c d) = x (ix3 c b d) :=
  transpose_apply (s := S32x16384x64) (t := S16384x32x64) [1, 0, 2] x transposes_S32x16384x64_S16384x32x64_1_0_2 (ix3 b c d) (ix3 c b d)
    (fun a => match a with | ⟨0, _⟩ => rfl | ⟨1, _⟩ => rfl | ⟨2, _⟩ => rfl)

/-- The batched product at (b, c, e): the sum over the contracted coordinate d of l(b, c, d) · r(b, e, d). -/
theorem dot_at (A B : FVec Ideal S16384x32x64 .f32) (b : Fin 16384) (c e : Fin 32) :
    Host.dotGeneral (F := Ideal) dot_S16384x32x64_S16384x32x64_S16384x32x32_2_2_1_1_0_0 none A B (ix3 b c e) = ∑ d : Fin 64, A (ix3 b c d) * B (ix3 b e d) := by
  show FloatOps.dotGeneral dot_S16384x32x64_S16384x32x64_S16384x32x32_2_2_1_1_0_0 none _ A B (ix3 b c e) = _
  rw [Ideal.dotGeneral_apply, ← Equiv.sum_comp (contrEquiv1 dot_S16384x32x64_S16384x32x64_S16384x32x32_2_2_1_1_0_0 64 rfl rfl).symm]
  refine Finset.sum_congr rfl fun d _ => ?_
  have c3 := contrEquiv1_symm_val dot_S16384x32x64_S16384x32x64_S16384x32x32_2_2_1_1_0_0 64 rfl rfl d
  have l3 : (dot_S16384x32x64_S16384x32x64_S16384x32x32_2_2_1_1_0_0).lhsIdx (ix3 b c e) ((contrEquiv1 dot_S16384x32x64_S16384x32x64_S16384x32x32_2_2_1_1_0_0 64 rfl rfl).symm d) = ix3 b c d := by
    funext ax; apply Fin.ext
    match ax with
    | ⟨0, _⟩ => simp [DotDims.lhsIdx, dot_S16384x32x64_S16384x32x64_S16384x32x32_2_2_1_1_0_0]; rfl
    | ⟨1, _⟩ => simp [DotDims.lhsIdx, dot_S16384x32x64_S16384x32x64_S16384x32x32_2_2_1_1_0_0]; rfl
    | ⟨2, _⟩ => simp [DotDims.lhsIdx, dot_S16384x32x64_S16384x32x64_S16384x32x32_2_2_1_1_0_0]; exact c3
  have r3 : (dot_S16384x32x64_S16384x32x64_S16384x32x32_2_2_1_1_0_0).rhsIdx (ix3 b c e) ((contrEquiv1 dot_S16384x32x64_S16384x32x64_S16384x32x32_2_2_1_1_0_0 64 rfl rfl).symm d) = ix3 b e d := by
    funext ax; apply Fin.ext
    match ax with
    | ⟨0, _⟩ => simp [DotDims.rhsIdx, dot_S16384x32x64_S16384x32x64_S16384x32x32_2_2_1_1_0_0]; rfl
    | ⟨1, _⟩ => simp [DotDims.rhsIdx, dot_S16384x32x64_S16384x32x64_S16384x32x32_2_2_1_1_0_0]; rfl
    | ⟨2, _⟩ => simp [DotDims.rhsIdx, dot_S16384x32x64_S16384x32x64_S16384x32x32_2_2_1_1_0_0]; exact c3
  rw [l3, r3]

/-- A 32-bit word holding a number below 32, read signed, is that number. -/
theorem toInt_toNat_ofNat_lt (k : Nat) (hk : k < 32) : (BitVec.ofNat 32 k).toInt.toNat = k := by
  have h : ∀ q : Fin 32, (BitVec.ofNat 32 q.val).toInt.toNat = q.val := by decide
  exact h ⟨k, hk⟩

/-- The gather at (b, n) reads its operand at (b, row n, col n), given a table holding the row and the column of
    the n-th upper-triangular entry in its two columns. -/
theorem gather_at {α : Type} (P : S16384x32x32.Idx → α) (T : IVec S528x2 32)
    (hrow : ∀ n : Fin 528, T (ix2 n 0) = BitVec.ofNat 32 (Tri.row n.val))
    (hcol : ∀ n : Fin 528, T (ix2 n 1) = BitVec.ofNat 32 (Tri.col n.val))
    (b : Fin 16384) (n : Fin 528) :
    Host.gather gather_S16384x32x32_S528x2_S16384x528_0_12_n_n_12_1_1638411 P T (ix2 b n) = P (ix3 b (Tri.rowF n) (Tri.colF n)) := by
  unfold Host.gather
  congr 1
  funext a
  refine Fin.ext ?_
  show (gather_S16384x32x32_S528x2_S16384x528_0_12_n_n_12_1_1638411).start (ix2 b n) T a + (gather_S16384x32x32_S528x2_S16384x528_0_12_n_n_12_1_1638411).batchCoord (ix2 b n) a + (gather_S16384x32x32_S528x2_S16384x528_0_12_n_n_12_1_1638411).offCoord (ix2 b n) a
    = (ix3 b (Tri.rowF n) (Tri.colF n) a).val
  rw [GatherDims.batchCoord_eq_zero _ _ _ List.not_mem_nil, Nat.add_zero]
  match a with
  | ⟨0, _⟩ =>
    have hm : (⟨0, by decide⟩ : Fin S16384x32x32.rank) ∉ (gather_S16384x32x32_S528x2_S16384x528_0_12_n_n_12_1_1638411).startIndexMap := by decide
    have hk : (⟨0, by decide⟩ : Fin S16384x32x32.rank) ∈ (gather_S16384x32x32_S528x2_S16384x528_0_12_n_n_12_1_1638411).sKept := by decide
    have hs : (gather_S16384x32x32_S528x2_S16384x528_0_12_n_n_12_1_1638411).start (ix2 b n) T ⟨0, by decide⟩ = 0 := by
      unfold GatherDims.start
      rw [dif_neg hm]
    have ho : (gather_S16384x32x32_S528x2_S16384x528_0_12_n_n_12_1_1638411).offCoord (ix2 b n) ⟨0, by decide⟩ = b.val := by
      unfold GatherDims.offCoord
      rw [dif_pos hk]
      rfl
    rw [hs, ho, Nat.zero_add]
    all_goals rfl
  | ⟨1, _⟩ =>
    have hm : (⟨1, by decide⟩ : Fin S16384x32x32.rank) ∈ (gather_S16384x32x32_S528x2_S16384x528_0_12_n_n_12_1_1638411).startIndexMap := by decide
    have hc : (⟨1, by decide⟩ : Fin S16384x32x32.rank) ∈ (gather_S16384x32x32_S528x2_S16384x528_0_12_n_n_12_1_1638411).collapsedSliceDims := by decide
    have ho : (gather_S16384x32x32_S528x2_S16384x528_0_12_n_n_12_1_1638411).offCoord (ix2 b n) ⟨1, by decide⟩ = 0 :=
      GatherDims.offCoord_eq_zero _ _ _ (fun h => ((GatherDims.mem_sKept _ _).mp h).1 hc)
    have hs : (gather_S16384x32x32_S528x2_S16384x528_0_12_n_n_12_1_1638411).start (ix2 b n) T ⟨1, by decide⟩ = Tri.row n.val := by
      unfold GatherDims.start
      rw [dif_pos hm]
      have hsi : (gather_S16384x32x32_S528x2_S16384x528_0_12_n_n_12_1_1638411).siIdx (ix2 b n) ⟨List.idxOf (⟨1, by decide⟩ : Fin S16384x32x32.rank) (gather_S16384x32x32_S528x2_S16384x528_0_12_n_n_12_1_1638411).startIndexMap,
          List.idxOf_lt_length_iff.2 hm⟩ = ix2 n 0 := by
        funext q; refine Fin.ext ?_
        match q with
        | ⟨0, _⟩ => rfl
        | ⟨1, _⟩ => rfl
      rw [hsi, hrow n, toInt_toNat_ofNat_lt _ (Tri.row_lt n)]
      exact Nat.min_eq_left (by have := Tri.row_lt n; show Tri.row n.val ≤ 32 - 1; omega)
    rw [hs, ho, Nat.add_zero]
    all_goals rfl
  | ⟨2, _⟩ =>
    have hm : (⟨2, by decide⟩ : Fin S16384x32x32.rank) ∈ (gather_S16384x32x32_S528x2_S16384x528_0_12_n_n_12_1_1638411).startIndexMap := by decide
    have hc : (⟨2, by decide⟩ : Fin S16384x32x32.rank) ∈ (gather_S16384x32x32_S528x2_S16384x528_0_12_n_n_12_1_1638411).collapsedSliceDims := by decide
    have ho : (gather_S16384x32x32_S528x2_S16384x528_0_12_n_n_12_1_1638411).offCoord (ix2 b n) ⟨2, by decide⟩ = 0 :=
      GatherDims.offCoord_eq_zero _ _ _ (fun h => ((GatherDims.mem_sKept _ _).mp h).1 hc)
    have hs : (gather_S16384x32x32_S528x2_S16384x528_0_12_n_n_12_1_1638411).start (ix2 b n) T ⟨2, by decide⟩ = Tri.col n.val := by
      unfold GatherDims.start
      rw [dif_pos hm]
      have hsi : (gather_S16384x32x32_S528x2_S16384x528_0_12_n_n_12_1_1638411).siIdx (ix2 b n) ⟨List.idxOf (⟨2, by decide⟩ : Fin S16384x32x32.rank) (gather_S16384x32x32_S528x2_S16384x528_0_12_n_n_12_1_1638411).startIndexMap,
          List.idxOf_lt_length_iff.2 hm⟩ = ix2 n 1 := by
        funext q; refine Fin.ext ?_
        match q with
        | ⟨0, _⟩ => rfl
        | ⟨1, _⟩ => rfl
      rw [hsi, hcol n, toInt_toNat_ofNat_lt _ (Tri.col_lt n)]
      exact Nat.min_eq_left (by have := Tri.col_lt n; show Tri.col n.val ≤ 32 - 1; omega)
    rw [hs, ho, Nat.add_zero]
    all_goals rfl

/-- The reference's result, given a table of the rows and columns of the upper-triangular entries: the pairwise inner
    products of the feature vectors, the upper triangle listed in row-major order. -/
theorem gathered_eq_G (T : IVec S528x2 32)
    (hrow : ∀ n : Fin 528, T (ix2 n 0) = BitVec.ofNat 32 (Tri.row n.val))
    (hcol : ∀ n : Fin 528, T (ix2 n 1) = BitVec.ofNat 32 (Tri.col n.val))
    (x : FVec Ideal S32x16384x64 .f32) :
    Host.gather gather_S16384x32x32_S528x2_S16384x528_0_12_n_n_12_1_1638411
      (Host.dotGeneral (F := Ideal) dot_S16384x32x64_S16384x32x64_S16384x32x32_2_2_1_1_0_0 none
        (transpose S16384x32x64 [1, 0, 2] x transposes_S32x16384x64_S16384x32x64_1_0_2)
        (transpose S16384x32x64 [1, 0, 2] x transposes_S32x16384x64_S16384x32x64_1_0_2)) T = Tri.G x := by
  funext j
  obtain ⟨b, n, rfl⟩ : ∃ (b : Fin 16384) (n : Fin 528), j = ix2 b n := ⟨j 0, j 1, eq_ix2 j⟩
  rw [gather_at _ T hrow hcol, dot_at, Tri.G_apply]
  refine Finset.sum_congr rfl fun d _ => ?_
  rw [transpose_at, transpose_at]

end Cert.ReferenceIdeal.RefValue

end
-- ==== Proof.Tab.lean ====
/-
  The integer index table of the reference program, stage by stage.

  From its third operation on, up to the concatenation that produces the [528, 2] index array, the reference
  program reads no input: it computes the coordinates of the upper-triangular entries of a 32 × 32 matrix
  (diagonal included), in row-major order, as `nonzero` of a mask with a static size does:

    mask  (32 × 32, one bit)   the entries of an upper-triangular matrix of ones that differ from zero;
    c1024 (1024)               the running count of set mask entries over the flattened mask;
    idx   (1024 × 1)           that count, clipped below at zero, a negative value wrapped by 528, as a column;
    bins  (528)                how many flat positions carry each count (a scatter-add of ones into zeros;
                               a count of 528 or more falls outside and is dropped);
    flat  (528)                the running sum of bins: the flat position of the n-th set entry;
    iu0, ju0                   (flat div 32) mod 32 and (flat div 1) mod 32, with the floor-division and
                               sign-of-divisor remainder corrections written out;
    iu, ju                     the same with a negative value wrapped by 32;
    table (528 × 2)            the two as columns, side by side.

  Every definition below is the printed operation of the program applied to the previous stages, with the
  program's own side-condition names; floats are read at the ideal instance.
-/
import proofs.«121324_j53721450938755_1_alg».proof.ReferenceIdeal
import Idealize.ShloMosaic.PureOps.Ideal

noncomputable section

namespace Cert.ReferenceIdeal.Tab

open Idealize.ShloMosaic Idealize.SL.Sem
open Cert.ReferenceIdeal

variable [Facts₀]
open Facts₀

/-! ## The mask -/

/-- The scalar one, and the 32 × 32 matrix of ones. -/
def one : FVec Ideal S_ .f32 := constant S_ .f32 0x3F800000#32
def ones : FVec Ideal S32x32 .f32 := broadcastInDim S32x32 ![] bcast_S_S32x32 one

/-- Row index minus one, compared (signed, ≥) with the column index: set strictly below the diagonal. -/
def below : IVec S32x32 1 :=
  cmpi .sge
    (addi (iotaInDim S32x32 32 0) (broadcastInDim S32x32 ![] bcast_S_S32x32 (constantI S_ 32 4294967295#32)))
    (iotaInDim S32x32 32 1)

/-- The upper triangle of the matrix of ones: zero strictly below the diagonal, the matrix's entry elsewhere. -/
def triu : FVec Ideal S32x32 .f32 :=
  select below (broadcastInDim S32x32 ![] bcast_S_S32x32 (constant S_ .f32 0x00000000#32)) ones

/-- Where the upper triangle of ones differs from zero. -/
def mask : IVec S32x32 1 :=
  cmpf .une triu (broadcastInDim S32x32 ![] bcast_S_S32x32 (constant S_ .f32 0x00000000#32))

/-! ## The running count -/

/-- The mask flattened to 1024 entries and zero-extended to 32 bits. -/
def maskFlat : IVec S1024 32 :=
  extui 32 (shapeCast S1024 mask shapeCasts_S32x32_S1024) natLt_1_32

/-- The cumulative sum of the flattened mask: a window of 1024 over the operand padded by 1023 below. -/
def c1024 : IVec S1024 32 :=
  Host.reduceWindow IntOp.addi ![1024] ![1] ![1023] ![0] maskFlat
    (broadcastInDim S_ ![] bcast_S_S_ (constantI S_ 32 0#32))
    reduceWindows_S1024_S1024_w1024s1p1023_0 h_S_

/-- The count clipped below at zero. -/
def clipped : IVec S1024 32 :=
  maxsi (broadcastInDim S1024 ![] bcast_S_S1024 (id (constantI S_ 32 0#32))) c1024

/-- A negative count wrapped by 528. -/
def wrapped : IVec S1024 32 :=
  select (cmpi .slt clipped (broadcastInDim S1024 ![] bcast_S_S1024 (constantI S_ 32 0#32)))
    (addi clipped (broadcastInDim S1024 ![] bcast_S_S1024 (constantI S_ 32 528#32)))
    clipped

/-- The scatter indices: the wrapped count as a column. -/
def idx : IVec S1024x1 32 := broadcastInDim S1024x1 ![0] bcast_S1024_S1024x1_0 wrapped

/-! ## The histogram of the count and its running sum -/

/-- Ones scattered (added) into 528 zeros at the indices: how many flat positions carry each count. -/
def bins : IVec S528 32 :=
  Host.scatter scatter_S528_S1024x1_S1024_n_0_0_1 IntOp.addi
    (broadcastInDim S528 ![] bcast_S_S528 (constantI S_ 32 0#32))
    idx
    (broadcastInDim S1024 ![] bcast_S_S1024 (constantI S_ 32 1#32))

/-- The cumulative sum of the histogram: a window of 528 over the operand padded by 527 below. -/
def flat : IVec S528 32 :=
  Host.reduceWindow IntOp.addi ![528] ![1] ![527] ![0] bins
    (broadcastInDim S_ ![] bcast_S_S_ (constantI S_ 32 0#32))
    reduceWindows_S528_S528_w528s1p527_0 h_S_

/-! ## Floor division and remainder by a scalar -/

/-- Floor division of a vector by a scalar: the truncated quotient, less one where the signs of dividend
    and divisor differ and the truncated remainder is not zero. -/
def floorDivide (x : IVec S528 32) (d : IVec S_ 32) : IVec S528 32 :=
  select
    (andi
      (cmpi .ne (signi x) (broadcastInDim S528 ![] bcast_S_S528 (signi d)))
      (cmpi .ne (Host.remsi x (broadcastInDim S528 ![] bcast_S_S528 d))
        (broadcastInDim S528 ![] bcast_S_S528 (constantI S_ 32 0#32))))
    (subi (Host.divsi x (broadcastInDim S528 ![] bcast_S_S528 d))
      (broadcastInDim S528 ![] bcast_S_S528 (constantI S_ 32 1#32)))
    (Host.divsi x (broadcastInDim S528 ![] bcast_S_S528 d))

/-- The divisor a remainder is taken by: one in place of zero. -/
def safeDivisor (d : IVec S_ 32) : IVec S_ 32 :=
  select (cmpi .eq (id d) (constantI S_ 32 0#32)) (constantI S_ 32 1#32) (id d)

/-- The truncated remainder of a vector by the (safe) scalar divisor. -/
def truncRem (x : IVec S528 32) (d : IVec S_ 32) : IVec S528 32 :=
  Host.remsi x (broadcastInDim S528 ![] bcast_S_S528 (safeDivisor d))

/-- The remainder with the sign of the divisor: the truncated remainder, plus the divisor where it is not
    zero and its sign differs from the divisor's. -/
def remainder (x : IVec S528 32) (d : IVec S_ 32) : IVec S528 32 :=
  select
    (andi
      (cmpi .ne
        (cmpi .slt (truncRem x d) (broadcastInDim S528 ![] bcast_S_S528 (constantI S_ 32 0#32)))
        (broadcastInDim S528 ![] bcast_S_S528 (cmpi .slt (safeDivisor d) (constantI S_ 32 0#32))))
      (cmpi .ne (truncRem x d) (broadcastInDim S528 ![] bcast_S_S528 (constantI S_ 32 0#32))))
    (addi (truncRem x d) (broadcastInDim S528 ![] bcast_S_S528 (safeDivisor d)))
    (truncRem x d)

/-- A negative value wrapped by 32. -/
def wrap32 (x : IVec S528 32) : IVec S528 32 :=
  select (cmpi .slt x (broadcastInDim S528 ![] bcast_S_S528 (constantI S_ 32 0#32)))
    (addi x (broadcastInDim S528 ![] bcast_S_S528 (constantI S_ 32 32#32)))
    x

/-! ## The two coordinates and the table -/

/-- The row coordinate: (flat div 32) mod 32. -/
def iu0 : IVec S528 32 := remainder (floorDivide flat (constantI S_ 32 32#32)) (constantI S_ 32 32#32)

/-- The column coordinate: (flat div 1) mod 32. -/
def ju0 : IVec S528 32 := remainder (floorDivide flat (constantI S_ 32 1#32)) (constantI S_ 32 32#32)

def iu : IVec S528 32 := wrap32 iu0
def ju : IVec S528 32 := wrap32 ju0

/-- The index table: the two coordinates as columns, side by side. -/
def table : IVec S528x2 32 :=
  concatenate S528x2 1
    [⟨S528x1, broadcastInDim S528x1 ![0] bcast_S528_S528x1_0 iu⟩,
     ⟨S528x1, broadcastInDim S528x1 ![0] bcast_S528_S528x1_0 ju⟩]
    concatenates_S528x1_S528x1_S528x2_d1

end Cert.ReferenceIdeal.Tab
-- ==== Proof.RefBridge.lean ====
/- The index table read off the run is the index table defined stage by stage: both are the same operations applied
   in the same order, so the two terms unfold to one. -/
import proofs.«121324_j53721450938755_1_alg».proof.Proof.RefRun
import proofs.«121324_j53721450938755_1_alg».proof.Proof.Tab

noncomputable section

namespace Cert.ReferenceIdeal.RefRun

open Cert.ReferenceIdeal Idealize.ShloMosaic

/-- The table the integer operations leave is the staged table. -/
theorem tableTerm_eq : tableTerm = Cert.ReferenceIdeal.Tab.table := rfl

end Cert.ReferenceIdeal.RefRun

end
-- ==== Proof.LibLayoutIx.lean ====
/-
  Layout operations of small literal ranks read at an index whose coordinates are named (ValueIdx's ix1, ix2, ix3):
  a scalar broadcast anywhere, a vector as a column or a row, a column or a row repeated, a transposition of two or
  three axes, a one-column array flattened, one column sliced out, two columns set side by side, three equal bands of
  columns set side by side.  Each is the library's read-at-an-index lemma with the operand's index chosen.
-/
import Idealize.ShloMosaic.Lib.Pipeline.Value
import Idealize.ShloMosaic.Lib.ValueIdx

noncomputable section

namespace Idealize.ShloMosaic.LayoutIx

open Idealize.ShloMosaic Idealize.ShloMosaic.ValueIdx

variable {α : Type}

/-- A scalar broadcast to any shape reads the scalar everywhere. -/
theorem bcast_scalar (t : Shape) (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: entry (n, k) is entry n. -/
theorem bcast_col {N : Nat} (dims : Fin 1 → Fin 2) (hd : dims 0 = 0)
    (h : (⟨1, ![N]⟩ : Shape).BroadcastsInDim ⟨2, ![N, 1]⟩ dims) (x : (⟨1, ![N]⟩ : Shape).Idx → α) (n : Fin N) (k : Fin 1) :
    broadcastInDim ⟨2, ![N, 1]⟩ dims h x (ix2 n k) = x (ix1 n) := by
  refine broadcastInDim_apply (s := ⟨1, ![N]⟩) (t := ⟨2, ![N, 1]⟩) dims h x (ix2 n k) (ix1 n) (fun a => ?_)
  obtain rfl : a = 0 := Subsingleton.elim _ _
  rw [hd]
  show n.val = if N = 1 then 0 else n.val
  split
  · have := n.isLt; omega
  · rfl

/-- A vector made a row: entry (k, n) is entry n. -/
theorem bcast_row {N : Nat} (dims : Fin 1 → Fin 2) (hd : dims 0 = 1)
    (h : (⟨1, ![N]⟩ : Shape).BroadcastsInDim ⟨2, ![1, N]⟩ dims) (x : (⟨1, ![N]⟩ : Shape).Idx → α) (n : Fin N) (k : Fin 1) :
    broadcastInDim ⟨2, ![1, N]⟩ dims h x (ix2 k n) = x (ix1 n) := by
  refine broadcastInDim_apply (s := ⟨1, ![N]⟩) (t := ⟨2, ![1, N]⟩) dims h x (ix2 k n) (ix1 n) (fun a => ?_)
  obtain rfl : a = 0 := Subsingleton.elim _ _
  rw [hd]
  show n.val = if N = 1 then 0 else n.val
  split
  · have := n.isLt; omega
  · rfl

/-- A row repeated down C rows: entry (c, n) is entry (0, n). -/
theorem bcast_rows {C N : Nat} (dims : Fin 2 → Fin 2) (hd0 : dims 0 = 0) (hd1 : dims 1 = 1)
    (h : (⟨2, ![1, N]⟩ : Shape).BroadcastsInDim ⟨2, ![C, N]⟩ dims) (x : (⟨2, ![1, N]⟩ : Shape).Idx → α) (c : Fin C) (n : Fin N) :
    broadcastInDim ⟨2, ![C, N]⟩ dims h x (ix2 c n) = x (ix2 (0 : Fin 1) n) := by
  refine broadcastInDim_apply (s := ⟨2, ![1, N]⟩) (t := ⟨2, ![C, N]⟩) dims h x (ix2 c n) (ix2 (0 : Fin 1) n) (fun a => ?_)
  match a with
  | ⟨0, _⟩ =>
    show (0 : Nat) = if (1 : Nat) = 1 then 0 else _
    rw [if_pos rfl]
  | ⟨1, _⟩ =>
    show n.val = if N = 1 then 0 else ((ix2 c n) (dims 1)).val
    rw [hd1]
    split
    · have := n.isLt; omega
    · rfl

/-- A column repeated across C columns: entry (n, c) is entry (n, 0). -/
theorem bcast_cols {N C : Nat} (dims : Fin 2 → Fin 2) (hd0 : dims 0 = 0) (hd1 : dims 1 = 1)
    (h : (⟨2, ![N, 1]⟩ : Shape).BroadcastsInDim ⟨2, ![N, C]⟩ dims) (x : (⟨2, ![N, 1]⟩ : Shape).Idx → α) (n : Fin N) (c : Fin C) :
    broadcastInDim ⟨2, ![N, C]⟩ dims h x (ix2 n c) = x (ix2 n (0 : Fin 1)) := by
  refine broadcastInDim_apply (s := ⟨2, ![N, 1]⟩) (t := ⟨2, ![N, C]⟩) dims h x (ix2 n c) (ix2 n (0 : Fin 1)) (fun a => ?_)
  match a with
  | ⟨0, _⟩ =>
    show n.val = if N = 1 then 0 else ((ix2 n c) (dims 0)).val
    rw [hd0]
    split
    · have := n.isLt; omega
    · rfl
  | ⟨1, _⟩ =>
    show (0 : Nat) = if (1 : Nat) = 1 then 0 else _
    rw [if_pos rfl]

/-- Two axes exchanged: entry (n, c) of the result is entry (c, n). -/
theorem transpose_two {C N : Nat} (h : (⟨2, ![C, N]⟩ : Shape).Transposes [1, 0] ⟨2, ![N, C]⟩)
    (x : (⟨2, ![C, N]⟩ : Shape).Idx → α) (n : Fin N) (c : Fin C) :
    transpose ⟨2, ![N, C]⟩ [1, 0] x h (ix2 n c) = x (ix2 c n) := by
  refine transpose_apply [1, 0] x h _ (ix2 c n) (fun b => ?_)
  match b with
  | ⟨0, _⟩ => rfl
  | ⟨1, _⟩ => rfl

/-- The first axis moved last: entry (h, w, c) of the result is entry (c, h, w). -/
theorem transpose_first_last {C H W : Nat} (h : (⟨3, ![C, H, W]⟩ : Shape).Transposes [1, 2, 0] ⟨3, ![H, W, C]⟩)
    (x : (⟨3, ![C, H, W]⟩ : Shape).Idx → α) (a : Fin H) (b : Fin W) (c : Fin C) :
    transpose ⟨3, ![H, W, C]⟩ [1, 2, 0] x h (ix3 a b c) = x (ix3 c a b) := by
  refine transpose_apply [1, 2, 0] x h _ (ix3 c a b) (fun d => ?_)
  match d with
  | ⟨0, _⟩ => rfl
  | ⟨1, _⟩ => rfl
  | ⟨2, _⟩ => rfl

/-- The same with the permutation a variable known to be the exchange (the form a rewriting pass can use). -/
theorem transpose_two' {C N : Nat} (perm : List (Fin 2)) (hp : perm = [1, 0])
    (h : (⟨2, ![C, N]⟩ : Shape).Transposes perm ⟨2, ![N, C]⟩)
    (x : (⟨2, ![C, N]⟩ : Shape).Idx → α) (n : Fin N) (c : Fin C) :
    transpose ⟨2, ![N, C]⟩ perm x h (ix2 n c) = x (ix2 c n) := by
  subst hp; exact transpose_two h x n c

/-- The same with the permutation a variable known to be the rotation. -/
theorem transpose_first_last' {C H W : Nat} (perm : List (Fin 3)) (hp : perm = [1, 2, 0])
    (h : (⟨3, ![C, H, W]⟩ : Shape).Transposes perm ⟨3, ![H, W, C]⟩)
    (x : (⟨3, ![C, H, W]⟩ : Shape).Idx → α) (a : Fin H) (b : Fin W) (c : Fin C) :
    transpose ⟨3, ![H, W, C]⟩ perm x h (ix3 a b c) = x (ix3 c a b) := by
  subst hp; exact transpose_first_last h x a b c

/-- A one-column array flattened: entry n is entry (n, 0). -/
theorem flatten_col {N : Nat} (h : (⟨2, ![N, 1]⟩ : Shape).ShapeCasts ⟨1, ![N]⟩)
    (x : (⟨2, ![N, 1]⟩ : Shape).Idx → α) (n : Fin N) :
    shapeCast ⟨1, ![N]⟩ x h (ix1 n) = x (ix2 n (0 : Fin 1)) := by
  refine shapeCast_apply x h _ (ix2 n (0 : Fin 1)) ?_
  rw [Shape.rowMajor_val_two, Shape.rowMajor_val_one]
  show n.val * 1 + 0 = n.val
  omega

/-- One column sliced out of K: entry (n, 0) of the slice at column offset o is entry (n, o). -/
theorem slice_col {N K : Nat} (off : Fin 2 → Nat) (o : Fin K) (h0 : off 0 = 0) (h1 : off 1 = o.val)
    (h : (⟨2, ![N, K]⟩ : Shape).Slices off ⟨2, ![N, 1]⟩) (x : (⟨2, ![N, K]⟩ : Shape).Idx → α) (n : Fin N) (k : Fin 1) :
    extractStridedSlice ⟨2, ![N, 1]⟩ off x h (ix2 n k) = x (ix2 n o) := by
  refine extractStridedSlice_apply off x h _ (ix2 n o) (fun a => ?_)
  match a with
  | ⟨0, _⟩ => show n.val = off 0 + n.val; omega
  | ⟨1, _⟩ => show o.val = off 1 + k.val; have := k.isLt; omega

/-- Two one-column arrays set side by side: column 0 is the first ... -/
theorem concat_cols_left {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (0 : Fin 2)) = a (ix2 n (0 : Fin 1)) := by
  refine concatenate_pair_apply_left (t := ⟨2, ![N, 2]⟩) (s₁ := ⟨2, ![N, 1]⟩) (s₂ := ⟨2, ![N, 1]⟩) 1 a b h (ix2 n (0 : Fin 2)) rfl
    (ix2 n (0 : Fin 1)) (fun d => ?_)
  match d with
  | ⟨0, _⟩ => rfl
  | ⟨1, _⟩ => rfl

/-- ... and column 1 is the second. -/
theorem concat_cols_right {N : Nat}
    (h : Shape.Concatenates [(⟨2, ![N, 1]⟩ : Shape), ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (ix2 n (1 : Fin 2)) = b (ix2 n (0 : Fin 1)) := by
  refine concatenate_pair_apply_right (t := ⟨2, ![N, 2]⟩) (s₁ := ⟨2, ![N, 1]⟩) (s₂ := ⟨2, ![N, 1]⟩) 1 a b h (ix2 n (1 : Fin 2)) rfl rfl
    (ix2 n (0 : Fin 1)) (fun d hd => ?_) rfl
  match d with
  | ⟨0, _⟩ => rfl
  | ⟨1, _⟩ => exact absurd rfl hd

/-- Three arrays of K columns set side by side: column K q + k of the result is column k of the q-th. -/
theorem concat3_apply {N K M : Nat}
    (h : Shape.Concatenates [(⟨2, ![N, K]⟩ : Shape), ⟨2, ![N, K]⟩, ⟨2, ![N, K]⟩] ⟨2, ![N, M]⟩ 1)
    (a b c : (⟨2, ![N, K]⟩ : Shape).Idx → α) (n : Fin N) (j : Fin M) (q : Fin 3) (k : Fin K)
    (hj : j.val = K * q.val + k.val) :
    concatenate ⟨2, ![N, M]⟩ 1 [⟨⟨2, ![N, K]⟩, a⟩, ⟨⟨2, ![N, K]⟩, b⟩, ⟨⟨2, ![N, K]⟩, c⟩] h (ix2 n j)
      = (match q with | 0 => a | 1 => b | 2 => c) (ix2 n k) := by
  have hi : ∀ d : Fin 2, d.cast (rfl : (2 : Nat) = 2) ≠ (1 : Fin 2) → ((ix2 n k) d).val = ((ix2 n j) (d.cast rfl)).val := by
    intro d hd
    match d with
    | ⟨0, _⟩ => rfl
    | ⟨1, _⟩ => exact absurd rfl hd
  match q with
  | 0 =>
    refine concatenate_apply_piece (t := ⟨2, ![N, M]⟩) 1 [⟨⟨2, ![N, K]⟩, a⟩, ⟨⟨2, ![N, K]⟩, b⟩, ⟨⟨2, ![N, K]⟩, c⟩] h (ix2 n j) 0 (by show (0 : Nat) < 3; omega) ⟨2, ![N, K]⟩ a rfl rfl 0 rfl (ix2 n k) hi ?_
    show 0 + k.val = j.val
    simp at hj; omega
  | 1 =>
    refine concatenate_apply_piece (t := ⟨2, ![N, M]⟩) 1 [⟨⟨2, ![N, K]⟩, a⟩, ⟨⟨2, ![N, K]⟩, b⟩, ⟨⟨2, ![N, K]⟩, c⟩] h (ix2 n j) 1 (by show (1 : Nat) < 3; omega) ⟨2, ![N, K]⟩ b rfl rfl K (by simp) (ix2 n k) hi ?_
    show K + k.val = j.val
    simp at hj; omega
  | 2 =>
    refine concatenate_apply_piece (t := ⟨2, ![N, M]⟩) 1 [⟨⟨2, ![N, K]⟩, a⟩, ⟨⟨2, ![N, K]⟩, b⟩, ⟨⟨2, ![N, K]⟩, c⟩] h (ix2 n j) 2 (by show (2 : Nat) < 3; omega) ⟨2, ![N, K]⟩ c rfl rfl (K + K) (by simp) (ix2 n k) hi ?_
    show K + K + k.val = j.val
    simp at hj; omega

/-! ## The elementwise operations on words and the host's rounding, at an index (all by definition) -/

section Pointwise
variable {F : FTy → Type} [FloatOps F] {s : Shape} {φ : FTy} {w : Nat}

theorem cmpi_apply (p : CmpIPredicate) (a b : IVec s w) (i : s.Idx) : cmpi p a b i = IntOp.cmpi p (a i) (b i) := rfl
theorem addi_apply (a b : IVec s w) (i : s.Idx) : addi a b i = IntOp.addi (a i) (b i) := rfl
theorem minsi_apply (a b : IVec s w) (i : s.Idx) : minsi a b i = IntOp.minsi (a i) (b i) := rfl
theorem fptosi_apply (v : Nat) (a : FVec F s φ) (i : s.Idx) : fptosi v a i = FloatOps.fptosi v (a i) := rfl
theorem hostFloor_apply (a : FVec F s φ) (i : s.Idx) : Host.floor a i = FloatOps.hostUnary .floor (a i) := rfl
theorem constantI_apply (b : BitVec w) (i : s.Idx) : constantI s w b i = b := rfl

end Pointwise

end Idealize.ShloMosaic.LayoutIx

end
-- ==== Proof.TabCount.lean ====
/-
  Counting the mask: the running count in closed form, and where each count is first reached.

  With row i = r / 32 and column j = r % 32, the number of set mask entries among the flat positions 0, …, r is
  the entries of the rows before row i, `Tri.start i`, plus the j - i + 1 entries (i, i), …, (i, j) of row i when
  i ≤ j (none otherwise).  The count is at most n at exactly the positions before the n-th set entry (n from 0),
  so the number of such positions is that entry's flat position `Tri.pos n`.
-/
import proofs.«121324_j53721450938755_1_alg».proof.Proof.TriSpec
import Mathlib.Algebra.BigOperators.Fin
import Mathlib.Algebra.BigOperators.Intervals

namespace Cert.ReferenceIdeal.Tab

open scoped BigOperators

/-- The mask's value at flat position `r`: one on and above the diagonal. -/
def bitN (r : Nat) : Nat := if r / 32 ≤ r % 32 then 1 else 0

/-- The number of set mask entries among flat positions `0, …, r`, in closed form. -/
def cnt (r : Nat) : Nat := Tri.start (r / 32) + (if r / 32 ≤ r % 32 then r % 32 - r / 32 + 1 else 0)

theorem cnt_zero : cnt 0 = bitN 0 := by decide

theorem cnt_succ : ∀ r : Fin 1023, cnt (r.val + 1) = cnt r.val + bitN (r.val + 1) := by decide

theorem cnt_le : ∀ r : Fin 1024, cnt r.val ≤ 528 := by decide

/-- The sum of the mask over an initial segment is the closed form. -/
theorem sum_range_bitN (m : Nat) (hm : m < 1024) : ∑ s ∈ Finset.range (m + 1), bitN s = cnt m := by
  induction m with
  | zero => simp [cnt_zero]
  | succ k ih =>
    rw [Finset.sum_range_succ, ih (by omega)]
    exact (cnt_succ ⟨k, by omega⟩).symm

/-- A sum over the positions of `Fin N` up to `r` is the sum over the initial segment of the naturals. -/
theorem sum_filter_le_eq_range {N : Nat} (f : Nat → Nat) (r : Fin N) :
    (∑ s ∈ Finset.univ.filter (fun s : Fin N => s.val ≤ r.val), f s.val) = ∑ s ∈ Finset.range (r.val + 1), f s := by
  rw [Finset.sum_filter, Fin.sum_univ_eq_sum_range (fun s => if s ≤ r.val then f s else 0) N, ← Finset.sum_filter]
  congr 1
  ext s
  simp only [Finset.mem_filter, Finset.mem_range]
  have := r.isLt
  omega

/-- The running count of the mask at flat position `r`. -/
theorem sum_bitN (r : Fin 1024) :
    (∑ s ∈ Finset.univ.filter (fun s : Fin 1024 => s.val ≤ r.val), bitN s.val) = cnt r.val := by
  rw [sum_filter_le_eq_range bitN r]
  exact sum_range_bitN r.val r.isLt

end Cert.ReferenceIdeal.Tab
-- ==== Proof.TabMask.lean ====
/-
  The mask at an index.

  Entry (i, j) of the 32 × 32 mask is set exactly when i ≤ j: the row index less one is at least the column index
  (as signed words) exactly strictly below the diagonal, where the upper triangle of the matrix of ones is zero and
  elsewhere one, and as extended reals one differs from zero while zero does not.  Flattened in row-major order and
  zero-extended, the entry at flat position r is therefore the word of `bitN r`, with row r / 32 and column r % 32.
-/
import proofs.«121324_j53721450938755_1_alg».proof.Proof.Tab
import proofs.«121324_j53721450938755_1_alg».proof.Proof.LibLayoutIx
import proofs.«121324_j53721450938755_1_alg».proof.Proof.TabCount
import Idealize.ShloMosaic.Lib.IdealHost
import Idealize.ShloMosaic.Lib.Pipeline.Value

namespace Cert.ReferenceIdeal.Tab

open Idealize.ShloMosaic Idealize.ShloMosaic.ValueIdx Idealize.ShloMosaic.LayoutIx
open Cert.ReferenceIdeal

/-- The signed comparison "row less one is at least column", decided on the 32 × 32 coordinates. -/
theorem below_word : ∀ i j : Fin 32,
    IntOp.cmpi .sge (IntOp.addi (BitVec.ofNat 32 i.val) 4294967295#32) (BitVec.ofNat 32 j.val)
      = if j.val < i.val then 1#1 else 0#1 := by decide

variable [Facts₀]

theorem below_apply (i j : Fin 32) : below (ix2 i j) = if j.val < i.val then 1#1 else 0#1 := by
  rw [← below_word i j]
  show IntOp.cmpi .sge (IntOp.addi (iotaInDim S32x32 32 0 (ix2 i j))
      (broadcastInDim S32x32 ![] Facts₀.bcast_S_S32x32 (constantI S_ 32 4294967295#32) (ix2 i j)))
      (iotaInDim S32x32 32 1 (ix2 i j)) = _
  rw [broadcastInDim_scalar_apply]
  rfl

theorem triu_apply (i j : Fin 32) : triu (ix2 i j) = if j.val < i.val then (0 : EReal) else 1 := by
  show Scalar.select (below (ix2 i j))
      (broadcastInDim S32x32 ![] Facts₀.bcast_S_S32x32 (constant (F := Ideal) S_ .f32 0x00000000#32) (ix2 i j))
      (broadcastInDim S32x32 ![] Facts₀.bcast_S_S32x32 (constant (F := Ideal) S_ .f32 0x3F800000#32) (ix2 i j)) = _
  rw [below_apply, broadcastInDim_scalar_apply, broadcastInDim_scalar_apply, constant_apply, constant_apply,
    Ideal.ofBits_zero_f32, Ideal.ofBits_one_f32]
  split
  · exact select_one _ _
  · exact select_zero _ _

theorem mask_apply (i j : Fin 32) : mask (ix2 i j) = if i.val ≤ j.val then 1#1 else 0#1 := by
  unfold mask
  rw [cmpf_apply, Ideal.cmpf_def, triu_apply, broadcastInDim_scalar_apply, constant_apply, Ideal.ofBits_zero_f32]
  by_cases h : j.val < i.val
  · rw [if_pos h, if_neg (by omega)]
    simp [Ideal.cmp]
  · rw [if_neg h, if_pos (by omega)]
    simp [Ideal.cmp]

/-- The flattened, zero-extended mask at flat position `r`. -/
theorem maskFlat_apply (r : Fin 1024) : maskFlat (ix1 r) = BitVec.ofNat 32 (bitN r.val) := by
  have hi : r.val / 32 < 32 := by have := r.isLt; omega
  have hj : r.val % 32 < 32 := Nat.mod_lt _ (by decide)
  show (shapeCast S1024 mask Facts₀.shapeCasts_S32x32_S1024 (ix1 r)).setWidth 32 = _
  rw [shapeCast_apply mask Facts₀.shapeCasts_S32x32_S1024 (ix1 r) (ix2 (⟨r.val / 32, hi⟩ : Fin 32) (⟨r.val % 32, hj⟩ : Fin 32))
    (by rw [Shape.rowMajor_val_two, Shape.rowMajor_val_one]
        show r.val / 32 * 32 + r.val % 32 = r.val
        omega)]
  rw [mask_apply]
  unfold bitN
  show (if r.val / 32 ≤ r.val % 32 then 1#1 else 0#1).setWidth 32 = _
  split <;> rfl

end Cert.ReferenceIdeal.Tab
-- ==== Proof.TabPos.lean ====
/-
  Where each count is first reached.

  The running count `cnt` of the mask is nondecreasing, it equals n + 1 at the flat position `Tri.pos n` of the
  n-th set entry (n from 0) and n just before it.  Hence the count is at most n at exactly the positions before
  `Tri.pos n`, and there are `Tri.pos n` of them.  The flat position decomposes as 32 · row + column.
-/
import proofs.«121324_j53721450938755_1_alg».proof.Proof.TabCount
import Mathlib.Data.Fintype.Fin

namespace Cert.ReferenceIdeal.Tab

theorem pos_lt : ∀ n : Fin 528, Tri.pos n.val < 1024 := by decide

theorem cnt_pos : ∀ n : Fin 528, cnt (Tri.pos n.val) = n.val + 1 := by decide

theorem cnt_pos_pred : ∀ n : Fin 528, Tri.pos n.val = 0 ∨ cnt (Tri.pos n.val - 1) = n.val := by decide

theorem pos_div_mod : ∀ n : Fin 528, Tri.pos n.val / 32 % 32 = Tri.row n.val := by decide

theorem pos_mod : ∀ n : Fin 528, Tri.pos n.val % 32 = Tri.col n.val := by decide

/-- The running count is nondecreasing. -/
theorem cnt_mono {a b : Nat} (hab : a ≤ b) (hb : b < 1024) : cnt a ≤ cnt b := by
  induction b, hab using Nat.le_induction with
  | base => exact le_rfl
  | succ k hak ih =>
    have h1 : cnt (k + 1) = cnt k + bitN (k + 1) := cnt_succ ⟨k, by omega⟩
    have h2 := ih (by omega)
    omega

/-- The count is at most n exactly before the n-th set entry. -/
theorem cnt_le_iff (n : Fin 528) (r : Fin 1024) : cnt r.val ≤ n.val ↔ r.val < Tri.pos n.val := by
  constructor
  · intro h
    by_contra hlt
    have h1 := cnt_mono (Nat.le_of_not_lt hlt) r.isLt
    have h2 := cnt_pos n
    omega
  · intro h
    rcases cnt_pos_pred n with h0 | h1
    · omega
    · have h2 := cnt_mono (a := r.val) (b := Tri.pos n.val - 1) (by omega) (by have := pos_lt n; omega)
      omega

/-- The number of flat positions whose count is at most n is the flat position of the n-th set entry. -/
theorem card_cnt_le (n : Fin 528) :
    (Finset.univ.filter (fun r : Fin 1024 => cnt r.val ≤ n.val)).card = Tri.pos n.val := by
  have h : (Finset.univ.filter (fun r : Fin 1024 => cnt r.val ≤ n.val))
      = Finset.univ.filter (fun r : Fin 1024 => r.val < Tri.pos n.val) := by
    ext r
    simp only [Finset.mem_filter, Finset.mem_univ, true_and]
    exact cnt_le_iff n r
  rw [h, Fin.card_filter_val_lt]
  have := pos_lt n
  omega

end Cert.ReferenceIdeal.Tab
-- ==== Proof.TabWord.lean ====
/-
  The pointwise integer steps of the index table, as functions of one word.

  Clipping below at zero, wrapping a negative value, floor division and the sign-of-divisor remainder act on each
  entry by itself, as a fixed function of the operand's word (and of the scalar divisor).  On the words the table
  meets (a count of at most 1024, a flat position below 1024, the divisors 32 and 1) no correction fires, and these
  functions are the identity, the quotient and the remainder of naturals.
-/
import Idealize.ShloMosaic.PureOps

namespace Cert.ReferenceIdeal.Tab

open Idealize.ShloMosaic

/-! ## The word functions -/

/-- The sign of a word: 0, 1 or -1. -/
def sgnW (x : BitVec 32) : BitVec 32 := if x = 0 then 0 else if x.msb then -1 else 1

/-- Floor division: the truncated quotient, less one where the signs differ and the remainder is not zero. -/
def fdivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32)
    (IntOp.divsi .host x d)

/-- One in place of a zero divisor. -/
def safeW (d : BitVec 32) : BitVec 32 := Scalar.select (IntOp.cmpi .eq d 0#32) 1#32 d

/-- The remainder with the divisor's sign. -/
def remW (x d : BitVec 32) : BitVec 32 :=
  Scalar.select
    (IntOp.andi
      (IntOp.cmpi .ne (IntOp.cmpi .slt (IntOp.remsi .host x (safeW d)) 0#32) (IntOp.cmpi .slt (safeW d) 0#32))
      (IntOp.cmpi .ne (IntOp.remsi .host x (safeW d)) 0#32))
    (IntOp.addi (IntOp.remsi .host x (safeW d)) (safeW d))
    (IntOp.remsi .host x (safeW d))

/-- A negative word wrapped by `m`. -/
def wrapW (m x : BitVec 32) : BitVec 32 := Scalar.select (IntOp.cmpi .slt x 0#32) (IntOp.addi x m) x

/-- A word clipped below at zero. -/
def clipW (x : BitVec 32) : BitVec 32 := IntOp.maxsi 0#32 x

/-! ## Their values on the words the table meets -/

theorem idx_word : ∀ v : Fin 1025, wrapW 528#32 (clipW (BitVec.ofNat 32 v.val)) = BitVec.ofNat 32 v.val := by
  decide +kernel

theorem row_word : ∀ v : Fin 1024,
    wrapW 32#32 (remW (fdivW (BitVec.ofNat 32 v.val) 32#32) 32#32) = BitVec.ofNat 32 (v.val / 32 % 32) := by
  decide +kernel

theorem col_word : ∀ v : Fin 1024,
    wrapW 32#32 (remW (fdivW (BitVec.ofNat 32 v.val) 1#32) 32#32) = BitVec.ofNat 32 (v.val % 32) := by
  decide +kernel

end Cert.ReferenceIdeal.Tab
-- ==== Proof.TabStage.lean ====
/-
  The pointwise integer stages of the index table, read at an index.

  Each vector stage (the clipped and wrapped count, floor division, remainder, the wrap by 32, the two columns of
  the table) read at an index is the corresponding word function of the operand's word at that index and of the
  scalar divisor: every operation involved acts entrywise, and a broadcast scalar reads the scalar everywhere.
-/
import proofs.«121324_j53721450938755_1_alg».proof.Proof.Tab
import proofs.«121324_j53721450938755_1_alg».proof.Proof.TabWord
import proofs.«121324_j53721450938755_1_alg».proof.Proof.LibLayoutIx
import Idealize.ShloMosaic.Lib.IdealHost

namespace Cert.ReferenceIdeal.Tab

open Idealize.ShloMosaic Idealize.ShloMosaic.ValueIdx Idealize.ShloMosaic.LayoutIx
open Cert.ReferenceIdeal

section Pointwise
variable {s : Shape} {w : Nat}

theorem andi_apply (a b : IVec s w) (i : s.Idx) : andi a b i = IntOp.andi (a i) (b i) := rfl
theorem subi_apply (a b : IVec s w) (i : s.Idx) : subi a b i = IntOp.subi (a i) (b i) := rfl
theorem maxsi_apply (a b : IVec s w) (i : s.Idx) : maxsi a b i = IntOp.maxsi (a i) (b i) := rfl
theorem hostDivsi_apply (a b : IVec s w) (i : s.Idx) : Host.divsi a b i = IntOp.divsi .host (a i) (b i) := rfl
theorem hostRemsi_apply (a b : IVec s w) (i : s.Idx) : Host.remsi a b i = IntOp.remsi .host (a i) (b i) := rfl
theorem signi_apply (a : IVec s 32) (i : s.Idx) : signi a i = sgnW (a i) := rfl

end Pointwise

variable [Facts₀]

/-- A scalar broadcast to 528 entries reads the scalar at every entry. -/
theorem bc528 {α : Type} (y : S_.Idx → α) (n : Fin 528) :
    broadcastInDim S528 ![] Facts₀.bcast_S_S528 y (ix1 n) = y ix0 := broadcastInDim_scalar_apply _ y _

/-- A scalar broadcast to 1024 entries reads the scalar at every entry. -/
theorem bc1024 {α : Type} (y : S_.Idx → α) (r : Fin 1024) :
    broadcastInDim S1024 ![] Facts₀.bcast_S_S1024 y (ix1 r) = y ix0 := broadcastInDim_scalar_apply _ y _

theorem floorDivide_apply (x : IVec S528 32) (d : IVec S_ 32) (n : Fin 528) :
    floorDivide x d (ix1 n) = fdivW (x (ix1 n)) (d ix0) := by
  unfold floorDivide fdivW
  simp only [select_apply, andi_apply, cmpi_apply, subi_apply, hostDivsi_apply, hostRemsi_apply, signi_apply]
  repeat rw [bc528]
  all_goals rfl

theorem safeDivisor_apply (d : IVec S_ 32) : safeDivisor d ix0 = safeW (d ix0) := by
  unfold safeDivisor safeW
  simp only [select_apply, cmpi_apply, constantI_apply, id_eq]
  all_goals rfl

theorem remainder_apply (x : IVec S528 32) (d : IVec S_ 32) (n : Fin 528) :
    remainder x d (ix1 n) = remW (x (ix1 n)) (d ix0) := by
  unfold remainder truncRem remW
  simp only [select_apply, andi_apply, cmpi_apply, addi_apply, hostRemsi_apply]
  repeat rw [bc528]
  simp only [cmpi_apply, safeDivisor_apply]
  all_goals rfl

theorem wrap32_apply (x : IVec S528 32) (n : Fin 528) : wrap32 x (ix1 n) = wrapW 32#32 (x (ix1 n)) := by
  unfold wrap32 wrapW
  simp only [select_apply, cmpi_apply, addi_apply]
  repeat rw [bc528]
  all_goals rfl

theorem wrapped_apply (r : Fin 1024) : wrapped (ix1 r) = wrapW 528#32 (clipW (c1024 (ix1 r))) := by
  unfold wrapped clipped wrapW clipW
  simp only [select_apply, cmpi_apply, addi_apply, maxsi_apply]
  repeat rw [bc1024]
  all_goals rfl

theorem idx_apply (r : Fin 1024) : idx (ix2 r (0 : Fin 1)) = wrapW 528#32 (clipW (c1024 (ix1 r))) := by
  unfold idx
  rw [bcast_col (N := 1024) ![0] rfl Facts₀.bcast_S1024_S1024x1_0 wrapped r 0, wrapped_apply]

theorem iu_apply (n : Fin 528) :
    iu (ix1 n) = wrapW 32#32 (remW (fdivW (flat (ix1 n)) 32#32) 32#32) := by
  unfold iu iu0
  rw [wrap32_apply, remainder_apply, floorDivide_apply]
  rfl

theorem ju_apply (n : Fin 528) :
    ju (ix1 n) = wrapW 32#32 (remW (fdivW (flat (ix1 n)) 1#32) 32#32) := by
  unfold ju ju0
  rw [wrap32_apply, remainder_apply, floorDivide_apply]
  rfl

theorem table_apply_left (n : Fin 528) : table (ix2 n (0 : Fin 2)) = iu (ix1 n) := by
  unfold table
  rw [concat_cols_left (N := 528) Facts₀.concatenates_S528x1_S528x1_S528x2_d1,
    bcast_col (N := 528) ![0] rfl Facts₀.bcast_S528_S528x1_0 iu n 0]

theorem table_apply_right (n : Fin 528) : table (ix2 n (1 : Fin 2)) = ju (ix1 n) := by
  unfold table
  rw [concat_cols_right (N := 528) Facts₀.concatenates_S528x1_S528x1_S528x2_d1,
    bcast_col (N := 528) ![0] rfl Facts₀.bcast_S528_S528x1_0 ju n 0]

end Cert.ReferenceIdeal.Tab
-- ==== Proof.LibCumsum.lean ====
/-
  The cumulative sum of a vector of 32-bit words, as a windowed reduction: a window as long as the vector,
  padded low by one less than the length, stride one, folded by addition from zero. Entry `r` of the result
  is the sum of the entries `0 … r` of the operand.
-/
import Mathlib
import Idealize.ShloMosaic.PureOps.Contract
import Idealize.ShloMosaic.PureOps.ShapeOps
import Idealize.ShloMosaic.Lib.ValueIdx

open Idealize.ShloMosaic Idealize.ShloMosaic.ValueIdx

namespace HostInt

/-- A left fold over `0 … M-1` that adds `g n` at step `n` is the starting value plus the sum of `g`. -/
theorem foldl_add_finRange {α : Type*} [AddCommMonoid α] {M : Nat} (g : Fin M → α) (v : α) :
    (List.finRange M).foldl (fun acc n => acc + g n) v = v + ∑ n, g n := by
  rw [Fin.sum_univ_def]
  generalize List.finRange M = l
  induction l generalizing v with
  | nil => simp
  | cons a l ih => simp [ih, add_assoc]

/-- A rank-1 index set is its coordinate range. -/
def idxEquiv1 (n : Nat) : Fin n ≃ (⟨1, ![n]⟩ : Shape).Idx where
  toFun := ix1
  invFun j := j 0
  left_inv _ := rfl
  right_inv j := (eq_ix1 j).symm

/-- The index the coordinate `m` corresponds to is `ix1 m`. -/
@[simp] theorem idxEquiv1_apply (n : Nat) (m : Fin n) : idxEquiv1 n m = ix1 m := rfl

/-- The cumulative sum of a length-N vector of 32-bit words as a windowed reduction (a window of N, padded N-1 low,
    stride 1, folded by addition from 0): entry r is the sum of the entries 0..r. Stated for entries that are
    naturals read as 32-bit words. -/
theorem cumsum_ofNat (N lo : Nat) (hlo : lo + 1 = N) (f : Fin N → Nat) (x : IVec ⟨1, ![N]⟩ 32)
    (hx : ∀ s : Fin N, x (ix1 s) = BitVec.ofNat 32 (f s))
    (init : IVec ⟨0, ![]⟩ 32) (h0 : ∀ i, init i = 0#32)
    (h : (⟨1, ![N]⟩ : Shape).ReduceWindows (![N] : Fin 1 → Nat) ![1] ![lo] ![0] ⟨1, ![N]⟩)
    (hu : 0 < (⟨0, ![]⟩ : Shape).numel) (r : Fin N) :
    Host.reduceWindow IntOp.addi ![N] ![1] ![lo] ![0] x init h hu (ix1 r)
      = BitVec.ofNat 32 (∑ s ∈ Finset.univ.filter (fun s : Fin N => s.val ≤ r.val), f s) := by
  have hz : (0#32 : BitVec 32) = 0 := rfl
  have hr := r.isLt
  -- the fold over the window's positions is zero plus the sum of its terms, indexed by the position `m`
  unfold Host.reduceWindow
  simp only [IntOp.addi]
  rw [foldl_add_finRange, h0, hz, zero_add,
    ← Equiv.sum_comp ((idxEquiv1 N).trans (Shape.rowMajor ⟨1, ![N]⟩))]
  simp only [Equiv.trans_apply, Equiv.symm_apply_apply, idxEquiv1_apply]
  -- the entries as a function of a natural position, zero outside the vector
  let F : Nat → BitVec 32 := fun k => if hk : k < N then BitVec.ofNat 32 (f ⟨k, hk⟩) else 0
  have hF : ∀ s : Fin N, BitVec.ofNat 32 (f s) = F s.val := fun s => by
    simp only [F, dif_pos s.isLt]
  -- window position `m` of result entry `r` reads operand position `r + m - lo`, or padding below `lo`
  trans ∑ m : Fin N, (if lo ≤ r.val * 1 + m.val then F (r.val * 1 + m.val - lo) else 0)
  · refine Finset.sum_congr rfl fun m _ => ?_
    have hm := m.isLt
    by_cases hk : lo ≤ r.val * 1 + m.val
    · have hlt : r.val * 1 + m.val - lo < N := by omega
      rw [if_pos hk, dif_pos (fun a => by rw [Fin.fin_one_eq_zero a]; exact ⟨hk, hlt⟩)]
      simp only [F, dif_pos hlt]
      rw [← hx]
      congr 1
      funext a
      match a with | ⟨0, _⟩ => rfl
    · rw [if_neg hk, dif_neg (fun hall => hk (hall 0).1)]
  -- `m ↦ r + m - lo` matches the positions `m ≥ lo - r` with the entries `s ≤ r`
  · rw [← BitVec.natCast_eq_ofNat, Nat.cast_sum]
    simp only [BitVec.natCast_eq_ofNat, hF]
    rw [← Finset.sum_filter]
    refine Finset.sum_bij'
      (fun m hm => ⟨r.val * 1 + m.val - lo, by have := (Finset.mem_filter.1 hm).2; have := m.isLt; omega⟩)
      (fun s hs => ⟨s.val + lo - r.val, by have := (Finset.mem_filter.1 hs).2; have := s.isLt; omega⟩)
      ?_ ?_ ?_ ?_ ?_
    · intro m hm
      have := (Finset.mem_filter.1 hm).2; have := m.isLt
      exact Finset.mem_filter.2 ⟨Finset.mem_univ _, by show r.val * 1 + m.val - lo ≤ r.val; omega⟩
    · intro s hs
      have := (Finset.mem_filter.1 hs).2; have := s.isLt
      exact Finset.mem_filter.2 ⟨Finset.mem_univ _, by show lo ≤ r.val * 1 + (s.val + lo - r.val); omega⟩
    · intro m hm
      have := (Finset.mem_filter.1 hm).2; have := m.isLt
      exact Fin.ext (by show r.val * 1 + m.val - lo + lo - r.val = m.val; omega)
    · intro s hs
      have := (Finset.mem_filter.1 hs).2; have := s.isLt
      exact Fin.ext (by show r.val * 1 + (s.val + lo - r.val) - lo = s.val; omega)
    · intro m hm
      rfl

end HostInt
-- ==== Proof.LibBincount.lean ====
/-
  Counting into bins as a scatter of ones by addition, and the count of the values at most `n` as the sum of the
  bin counts up to `n`. A scatter whose body is an addition, read at one element, is the operand's element plus
  the sum of the updates landing there; with one scalar update per start index, all ones, into zero bins, bin `k`
  ends at the number of start indices equal to `k`, the indices outside the bins being dropped.
-/
import Mathlib
import Idealize.ShloMosaic.PureOps.Contract
import Idealize.ShloMosaic.PureOps.ShapeOps
import Idealize.ShloMosaic.Lib.ValueIdx

open Idealize.ShloMosaic Idealize.ShloMosaic.ValueIdx

namespace HostInt

/-- Summing the sizes of the fibres g = k over k ≤ n counts the r with g r ≤ n. -/
theorem sum_card_fiber_le {N : Nat} (g : Fin N → Nat) (K : Nat) (n : Fin K) :
    (∑ k ∈ Finset.univ.filter (fun k : Fin K => k.val ≤ n.val), (Finset.univ.filter (fun r : Fin N => g r = k.val)).card)
      = (Finset.univ.filter (fun r : Fin N => g r ≤ n.val)).card := by
  rw [← Finset.card_biUnion]
  · congr 1
    ext r
    simp only [Finset.mem_biUnion, Finset.mem_filter, Finset.mem_univ, true_and]
    constructor
    · rintro ⟨k, hk, hgk⟩; omega
    · intro hr; exact ⟨⟨g r, lt_of_le_of_lt hr n.isLt⟩, hr, rfl⟩
  · intro a _ b _ hab
    change Disjoint _ _
    rw [Finset.disjoint_left]
    intro r hra hrb
    simp only [Finset.mem_filter, Finset.mem_univ, true_and] at hra hrb
    exact hab (Fin.ext (hra.symm.trans hrb))

/-- A scatter whose body is an addition, read at one element: the operand's element plus the sum of the updates
    whose result index is that element (an update whose index leaves the operand is dropped). -/
theorem scatter_add_apply {s si u : Shape} {w : Nat} {α : Type} [AddCommMonoid α] (d : ScatterDims s si u)
    (f : α → α → α) (hf : ∀ a b, f a b = a + b) (x : s.Idx → α) (idx : IVec si w) (upd : u.Idx → α) (i0 : s.Idx) :
    Host.scatter d f x idx upd i0
      = x i0 + ∑ n : Fin u.numel,
          if d.resultIdx? (u.rowMajor.symm n) idx = some i0 then upd (u.rowMajor.symm n) else 0 := by
  unfold Host.scatter
  rw [Fin.sum_univ_def]
  generalize List.finRange u.numel = l
  induction l generalizing x with
  | nil => simp
  | cons a l ih =>
    rw [List.foldl_cons, ih, List.map_cons, List.sum_cons, ← add_assoc]
    congr 1
    cases hres : d.resultIdx? (u.rowMajor.symm a) idx with
    | none => simp
    | some i =>
      by_cases hi : i0 = i
      · subst hi; simp [hf]
      · have hne : ¬ (some i = some i0) := fun h => hi (Option.some.inj h).symm
        simp [hi, hne]

/-- The dimension numbers of a scatter of `N` scalar updates into a length-`K` vector, one start index each. -/
abbrev binDims (N K : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ :=
  { updateWindowDims := [], insertedWindowDims := [0], scatterDimsToOperandDims := [0], indexVectorDim := 1, wf := wf }

/-- A natural below `2 ^ 31`, as a 32-bit word read signed, is itself. -/
theorem toInt_ofNat_of_lt (n : Nat) (hn : n < 2 ^ 31) : (BitVec.ofNat 32 n).toInt = (n : Int) := by
  have h31 : (2:Nat) ^ 31 = 2147483648 := by norm_num
  rw [BitVec.toInt_eq_toNat_cond, BitVec.toNat_ofNat, Nat.mod_eq_of_lt (by omega), if_pos (by omega)]

/-- Update `r` starts at the word the index array holds at `(r, 0)`, read signed. -/
theorem binDims_start (N K : Nat) (wf : ScatterDims.WF ⟨1, ![K]⟩ ⟨2, ![N, 1]⟩ ⟨1, ![N]⟩ [] [0] [0] 1)
    (idx : IVec ⟨2, ![N, 1]⟩ 32) (r : Fin N) (a : Fin 1) :
    (binDims N K wf).start (ix1 r) idx a = (idx (ix2 r 0)).toInt := by
  rw [Fin.fin_one_eq_zero a]
  unfold ScatterDims.start
  rw [dif_pos (by simp)]
  congr 2
  funext b
  match b with
  | ⟨0, _⟩ => exact Fin.ext rfl
  | ⟨1, _⟩ => exact Fin.ext rfl

/-- The updates are scalars: the window coordinate is zero. -/
theorem binDims_window (N K : Nat) (wf : ScatterDims.WF ⟨1, ![K]⟩ ⟨2, ![N, 1]⟩ ⟨1, ![N]⟩ [] [0] [0] 1)
    (r : Fin N) (a : Fin 1) : (binDims N K wf).window (ix1 r) a = 0 := by
  rw [Fin.fin_one_eq_zero a]
  rfl

/-- Update `r`, whose start index is the natural `g r` below `2 ^ 31`, lands at element `g r` when `g r < K`
    and is dropped otherwise. -/
theorem binDims_resultIdx (N K : Nat) (wf : ScatterDims.WF ⟨1, ![K]⟩ ⟨2, ![N, 1]⟩ ⟨1, ![N]⟩ [] [0] [0] 1)
    (g : Fin N → Nat) (hg : ∀ r, g r < 2 ^ 31)
    (idx : IVec ⟨2, ![N, 1]⟩ 32) (hidx : ∀ r : Fin N, idx (ix2 r 0) = BitVec.ofNat 32 (g r)) (r : Fin N) :
    (binDims N K wf).resultIdx? (ix1 r) idx = if hk : g r < K then some (ix1 ⟨g r, hk⟩) else none := by
  have hsum : ∀ a : Fin 1,
      (binDims N K wf).start (ix1 r) idx a + ((binDims N K wf).window (ix1 r) a : Int) = (g r : Int) := by
    intro a
    rw [binDims_start, binDims_window, hidx, toInt_ofNat_of_lt _ (hg r)]; simp
  unfold ScatterDims.resultIdx?
  by_cases hk : g r < K
  · rw [dif_pos hk, dif_pos (fun a => by
      rw [hsum a, Fin.fin_one_eq_zero a]
      refine ⟨Int.natCast_nonneg _, ?_⟩
      show (g r : Int) < (K : Int)
      exact_mod_cast hk)]
    congr 1
    funext a
    match a with
    | ⟨0, _⟩ => exact Fin.ext (by
        show ((binDims N K wf).start (ix1 r) idx 0 + ((binDims N K wf).window (ix1 r) 0 : Int)).toNat = g r
        rw [hsum]; simp)
  · rw [dif_neg hk, dif_neg (fun hall => hk (by
      have h2 := (hall 0).2
      rw [hsum] at h2
      have h3 : (g r : Int) < (K : Int) := h2
      exact_mod_cast h3))]

/-- A rank-1 index set is its coordinate range. -/
def rank1Equiv (n : Nat) : Fin n ≃ (⟨1, ![n]⟩ : Shape).Idx where
  toFun := ix1
  invFun j := j 0
  left_inv _ := rfl
  right_inv j := (eq_ix1 j).symm

/-- The index the coordinate `m` corresponds to is `ix1 m`. -/
@[simp] theorem rank1Equiv_apply (n : Nat) (m : Fin n) : rank1Equiv n m = ix1 m := rfl

/-- Counting into bins as a scatter: ones added, at the start indices `g r` (one per update `r`, index vector of
    length 1), into `K` zero bins; an index outside `[0, K)` is dropped. Bin `k` ends at the number of `r` with
    `g r = k`. -/
theorem bincount_ofNat (N K : Nat) (wf : ScatterDims.WF ⟨1, ![K]⟩ ⟨2, ![N, 1]⟩ ⟨1, ![N]⟩ [] [0] [0] 1)
    (g : Fin N → Nat) (hg : ∀ r, g r < 2 ^ 31)
    (x : IVec ⟨1, ![K]⟩ 32) (hx : ∀ k, x k = 0#32)
    (idx : IVec ⟨2, ![N, 1]⟩ 32) (hidx : ∀ r : Fin N, idx (ix2 r 0) = BitVec.ofNat 32 (g r))
    (upd : IVec ⟨1, ![N]⟩ 32) (hupd : ∀ r : Fin N, upd (ix1 r) = 1#32) (k : Fin K) :
    Host.scatter { updateWindowDims := [], insertedWindowDims := [0], scatterDimsToOperandDims := [0],
                   indexVectorDim := 1, wf := wf } IntOp.addi x idx upd (ix1 k)
      = BitVec.ofNat 32 (Finset.univ.filter (fun r : Fin N => g r = k.val)).card := by
  have hz : (0#32 : BitVec 32) = 0 := rfl
  have h1 : (1#32 : BitVec 32) = 1 := rfl
  show Host.scatter (binDims N K wf) IntOp.addi x idx upd (ix1 k) = _
  rw [scatter_add_apply (binDims N K wf) IntOp.addi (fun _ _ => rfl), hx, hz, zero_add,
    ← Equiv.sum_comp ((rank1Equiv N).trans (Shape.rowMajor ⟨1, ![N]⟩))]
  simp only [Equiv.trans_apply, Equiv.symm_apply_apply, rank1Equiv_apply,
    binDims_resultIdx N K wf g hg idx hidx, hupd, h1]
  have hiff : ∀ r : Fin N,
      ((if hk : g r < K then some (ix1 ⟨g r, hk⟩) else none) = some (ix1 k)) ↔ g r = k.val := by
    intro r
    by_cases hk : g r < K
    · rw [dif_pos hk]
      constructor
      · intro h
        have h2 := congrFun (Option.some.inj h) 0
        exact congrArg Fin.val h2
      · intro h
        have : (⟨g r, hk⟩ : Fin K) = k := Fin.ext h
        rw [this]
    · rw [dif_neg hk]
      constructor
      · intro h; exact absurd h (by simp)
      · intro h; exact absurd (h ▸ k.isLt) hk
  simp only [hiff]
  rw [Finset.sum_boole, BitVec.natCast_eq_ofNat]

end HostInt
-- ==== Proof.TabValue.lean ====
/-
  The entries of the index table.

  The running count of the mask at flat position r is `cnt r` (the cumulative sum of the flattened mask); clipping
  and wrapping leave it unchanged, so the scatter indices are the counts; the histogram entry k is the number of
  positions whose count is k; its cumulative sum at n is the number of positions whose count is at most n, which is
  the flat position `Tri.pos n` of the n-th upper-triangular entry; and dividing that position by 32 (and by 1) and
  reducing modulo 32 gives its row and its column.
-/
import proofs.«121324_j53721450938755_1_alg».proof.Proof.Tab
import proofs.«121324_j53721450938755_1_alg».proof.Proof.TabMask
import proofs.«121324_j53721450938755_1_alg».proof.Proof.TabCount
import proofs.«121324_j53721450938755_1_alg».proof.Proof.TabPos
import proofs.«121324_j53721450938755_1_alg».proof.Proof.TabWord
import proofs.«121324_j53721450938755_1_alg».proof.Proof.TabStage
import proofs.«121324_j53721450938755_1_alg».proof.Proof.LibCumsum
import proofs.«121324_j53721450938755_1_alg».proof.Proof.LibBincount

namespace Cert.ReferenceIdeal.Tab

open Idealize.ShloMosaic Idealize.ShloMosaic.ValueIdx Idealize.ShloMosaic.LayoutIx
open Cert.ReferenceIdeal

variable [Facts₀]

/-- The zero scalar the two cumulative sums start from. -/
theorem init_zero (i : S_.Idx) : broadcastInDim S_ ![] Facts₀.bcast_S_S_ (constantI S_ 32 0#32) i = 0#32 := by
  rw [broadcastInDim_scalar_apply]; rfl

/-- The running count of the mask. -/
theorem c1024_apply (r : Fin 1024) : c1024 (ix1 r) = BitVec.ofNat 32 (cnt r.val) := by
  unfold c1024
  rw [HostInt.cumsum_ofNat 1024 1023 rfl (fun s : Fin 1024 => bitN s.val) maskFlat maskFlat_apply _ init_zero
    Facts₀.reduceWindows_S1024_S1024_w1024s1p1023_0 Facts₀.h_S_ r, sum_bitN]

/-- The scatter indices are the counts. -/
theorem idx_value (r : Fin 1024) : idx (ix2 r (0 : Fin 1)) = BitVec.ofNat 32 (cnt r.val) := by
  rw [idx_apply, c1024_apply]
  exact idx_word ⟨cnt r.val, by have := cnt_le r; omega⟩

/-- The histogram of the counts. -/
theorem bins_apply (k : Fin 528) :
    bins (ix1 k) = BitVec.ofNat 32 (Finset.univ.filter (fun r : Fin 1024 => cnt r.val = k.val)).card := by
  unfold bins
  exact HostInt.bincount_ofNat 1024 528 Facts₀.scatter_S528_S1024x1_S1024_n_0_0_1_wf (fun r : Fin 1024 => cnt r.val)
    (fun r => by have := cnt_le r; show cnt r.val < 2 ^ 31; omega)
    _ (fun j => by rw [broadcastInDim_scalar_apply]; rfl)
    idx idx_value
    _ (fun r => by rw [bc1024]; rfl)
    k

/-- The cumulative histogram: the flat position of the n-th upper-triangular entry. -/
theorem flat_apply (n : Fin 528) : flat (ix1 n) = BitVec.ofNat 32 (Tri.pos n.val) := by
  unfold flat
  rw [HostInt.cumsum_ofNat 528 527 rfl
    (fun k : Fin 528 => (Finset.univ.filter (fun r : Fin 1024 => cnt r.val = k.val)).card) bins bins_apply _ init_zero
    Facts₀.reduceWindows_S528_S528_w528s1p527_0 Facts₀.h_S_ n,
    HostInt.sum_card_fiber_le (fun r : Fin 1024 => cnt r.val) 528 n, card_cnt_le]

/-- Column 0 of the table: the row of the n-th upper-triangular entry. -/
theorem table_row (n : Fin 528) : table (ix2 n 0) = BitVec.ofNat 32 (Tri.row n.val) := by
  rw [table_apply_left, iu_apply, flat_apply, ← pos_div_mod n]
  exact row_word ⟨Tri.pos n.val, pos_lt n⟩

/-- Column 1 of the table: the column of the n-th upper-triangular entry. -/
theorem table_col (n : Fin 528) : table (ix2 n 1) = BitVec.ofNat 32 (Tri.col n.val) := by
  rw [table_apply_right, ju_apply, flat_apply, ← pos_mod n]
  exact col_word ⟨Tri.pos n.val, pos_lt n⟩

end Cert.ReferenceIdeal.Tab
-- ==== Proof.lean ====
/-
  Pairwise feature interactions: for an array x[c, b, d] of 32 feature vectors (64 coordinates each) per batch element b,
  the result lists, for every b, the inner products ⟨x[i, b, ·], x[j, b, ·]⟩ of the pairs i ≤ j in row-major order of the
  upper triangle: 528 numbers, entry n being the pair (row n, col n) (TriSpec: Tri.G).

  The kernel cuts the batch into 32 bands of 512 rows; on each band it multiplies the (transposed, bf16-narrowed) block with
  itself batched over the rows and copies row i, columns i … 31 of every 32 × 32 product to the columns
  start i … start i + 31 - i of the output band (GramBlock, BlockValue, KernelValue).  The reference transposes, takes the
  same batched product over the whole batch, and gathers the entries (iu[n], ju[n]) where (iu, ju) is the list of the
  upper-triangular index pairs, which it computes itself from a 0/1 mask by two cumulative sums and a bin count
  (RefRun, RefValue; Tab and its value modules for the index list).  At the exact values narrowing to bf16 is the identity,
  so both results are Tri.G of the argument; no algebraic law beyond that is used, and the finiteness of the input is not
  needed.  The frame claims of the two kernel programs are the generated frame certificates; the reference's is its run
  with the result dropped; the idealization rewrote nothing, so `preserves` is trivial.
-/
import proofs.«121324_j53721450938755_1_alg».proof.Defs
import proofs.«121324_j53721450938755_1_alg».proof.Proof.Gen.Kernel
import proofs.«121324_j53721450938755_1_alg».proof.Proof.Gen.Kernel.Skeleton
import proofs.«121324_j53721450938755_1_alg».proof.Proof.Gen.Kernel.Launch
import proofs.«121324_j53721450938755_1_alg».proof.Proof.Gen.Kernel.Points
import proofs.«121324_j53721450938755_1_alg».proof.Proof.Gen.Kernel.Frame
import proofs.«121324_j53721450938755_1_alg».proof.Proof.Gen.KernelIdeal
import proofs.«121324_j53721450938755_1_alg».proof.Proof.Gen.KernelIdeal.Skeleton
import proofs.«121324_j53721450938755_1_alg».proof.Proof.Gen.KernelIdeal.Launch
import proofs.«121324_j53721450938755_1_alg».proof.Proof.Gen.KernelIdeal.Points
import proofs.«121324_j53721450938755_1_alg».proof.Proof.Gen.KernelIdeal.Frame
import proofs.«121324_j53721450938755_1_alg».proof.Proof.Gen.KernelIdeal.Value
import proofs.«121324_j53721450938755_1_alg».proof.Proof.Gen.ReferenceIdeal
import proofs.«121324_j53721450938755_1_alg».proof.Proof.Gen.Pre_finite_inputs
import proofs.«121324_j53721450938755_1_alg».proof.Proof.KernelValue
import proofs.«121324_j53721450938755_1_alg».proof.Proof.RefRun
import proofs.«121324_j53721450938755_1_alg».proof.Proof.RefValue
import proofs.«121324_j53721450938755_1_alg».proof.Proof.RefBridge
import proofs.«121324_j53721450938755_1_alg».proof.Proof.TabValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's result term is Tri.G of its argument: its gather reads the batched product at the index pairs its
    own integer operations list, and that list is the upper triangle in row-major order. -/
theorem result_eq_G (x : FVec Ideal Cert.ReferenceIdeal.S32x16384x64 .f32) :
    Cert.ReferenceIdeal.RefRun.result x = Tri.G x :=
  Cert.ReferenceIdeal.RefValue.gathered_eq_G Cert.ReferenceIdeal.RefRun.tableTerm
    (fun n => by rw [Cert.ReferenceIdeal.RefRun.tableTerm_eq]; exact Cert.ReferenceIdeal.Tab.table_row n)
    (fun n => by rw [Cert.ReferenceIdeal.RefRun.tableTerm_eq]; exact Cert.ReferenceIdeal.Tab.table_col n) x

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both idealized programs end with Tri.G of the (common) argument. -/
theorem algebraic : Cert.algebraic_KernelIdeal_ReferenceIdeal := by
  intro m ρ m' ρ' _ hagree
  refine ⟨fun c => Tri.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefRun.run m' ρ')
  rw [result_eq_G, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
